-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S4096x11008 : Shape := ⟨2, ![4096, 11008]⟩
abbrev S32x11008 : Shape := ⟨2, ![32, 11008]⟩
abbrev S11008 : Shape := ⟨1, ![11008]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_arg1 : IVec S4096x11008 32) (main_arg2 : IVec S32x11008 32) (main_v13 : IVec S_ 1) (main_v15 : IVec S4096x11008 1) (main_c_5 : IVec S_ 1) : IVec S_ 1 :=
  let main_v16 : IVec S_ 1 := (fun x v => Host.reduce IntOp.andi x v reducesTo_S4096x11008_S_d0_1 h_S_) main_v15 main_c_5
  let main_v17 : IVec S_ 1 := andi main_v13 main_v16
  let main_c_6 : IVec S_ 32 := constantI S_ 32 16#32
  let main_v18 : IVec S4096x11008 32 := broadcastInDim S4096x11008 ![] bcast_S_S4096x11008 main_c_6
  let main_v19 : IVec S4096x11008 1 := cmpi .slt main_arg1 main_v18
  let main_c_7 : IVec S_ 1 := constantI S_ 1 1#1
  let main_v20 : IVec S_ 1 := (fun x v => Host.reduce IntOp.andi x v reducesTo_S4096x11008_S_d0_1 h_S_) main_v19 main_c_7
  let main_v21 : IVec S_ 1 := andi main_v17 main_v20
  let main_c_8 : IVec S_ 32 := constantI S_ 32 0#32
  let main_v22 : IVec S32x11008 32 := broadcastInDim S32x11008 ![] bcast_S_S32x11008 main_c_8
  let main_v23 : IVec S32x11008 1 := cmpi .sge main_arg2 main_v22
  let main_c_9 : IVec S_ 1 := constantI S_ 1 1#1
  let main_v24 : IVec S_ 1 := (fun x v => Host.reduce IntOp.andi x v reducesTo_S32x11008_S_d0_1 h_S_) main_v23 main_c_9
  let main_v25 : IVec S_ 1 := andi main_v21 main_v24
  let main_c_10 : IVec S_ 32 := constantI S_ 32 16#32
  let main_v26 : IVec S32x11008 32 := broadcastInDim S32x11008 ![] bcast_S_S32x11008 main_c_10
  let main_v27 : IVec S32x11008 1 := cmpi .slt main_arg2 main_v26
  let main_c_11 : IVec S_ 1 := constantI S_ 1 1#1
  let main_v28 : IVec S_ 1 := (fun x v => Host.reduce IntOp.andi x v reducesTo_S32x11008_S_d0_1 h_S_) main_v27 main_c_11
  let main_v29 : IVec S_ 1 := andi main_v25 main_v28
  main_v29

def fn {F : FTy → Type} [FloatOps F] (main_arg0 : FVec F S32x4096 .f32) (main_arg1 : IVec S4096x11008 32) (main_arg2 : IVec S32x11008 32) (main_arg3 : FVec F S32x11008 .f32) (main_arg4 : FVec F S11008 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_c_4 : IVec S_ 32 := constantI S_ 32 0#32
  let main_v14 : IVec S4096x11008 32 := broadcastInDim S4096x11008 ![] bcast_S_S4096x11008 main_c_4
  let main_v15 : IVec S4096x11008 1 := cmpi .sge main_arg1 main_v14
  let main_c_5 : IVec S_ 1 := constantI S_ 1 1#1
  fn_part1 (F := F) main_arg1 main_arg2 main_v13 main_v15 main_c_5
-- ==== Kernel.lean ====
abbrev S32x4096 : Shape := ⟨2, ![32, 4096]⟩
abbrev S4096x11008 : Shape := ⟨2, ![4096, 11008]⟩
abbrev S32x11008 : Shape := ⟨2, ![32, 11008]⟩
abbrev S11008 : Shape := ⟨1, ![11008]⟩
abbrev S1x11008 : Shape := ⟨2, ![1, 11008]⟩
abbrev S4096x512 : Shape := ⟨2, ![4096, 512]⟩
abbrev S32x512 : Shape := ⟨2, ![32, 512]⟩
abbrev S1x512 : Shape := ⟨2, ![1, 512]⟩
abbrev S32x128x512 : Shape := ⟨3, ![32, 128, 512]⟩
abbrev S32x1x512 : Shape := ⟨3, ![32, 1, 512]⟩

abbrev nBuf : Space → Nat
  | .hbm => 7
  | .vmem => 11
  | .smem => 0
  | _ => 0

abbrev bufTy : (tb : Table) → Fin (tcTables nBuf tb) → BufTy
  | .hbm, ⟨0, _⟩ => ⟨S32x4096, .f32⟩
  | .hbm, ⟨1, _⟩ => ⟨S4096x11008, .i32⟩
  | .hbm, ⟨2, _⟩ => ⟨S32x11008, .i32⟩
  | .hbm, ⟨3, _⟩ => ⟨S32x11008, .f32⟩
  | .hbm, ⟨4, _⟩ => ⟨S11008, .f32⟩
  | .hbm, ⟨5, _⟩ => ⟨S1x11008, .f32⟩
  | .hbm, ⟨6, _⟩ => ⟨S32x11008, .f32⟩
  | .local _ .vmem, ⟨0, _⟩ => ⟨S32x4096, .f32⟩
  | .local _ .vmem, ⟨1, _⟩ => ⟨S4096x512, .i32⟩
  | .local _ .vmem, ⟨2, _⟩ => ⟨S4096x512, .i32⟩
  | .local _ .vmem, ⟨3, _⟩ => ⟨S32x512, .i32⟩
  | .local _ .vmem, ⟨4, _⟩ => ⟨S32x512, .i32⟩
  | .local _ .vmem, ⟨5, _⟩ => ⟨S32x512, .f32⟩
  | .local _ .vmem, ⟨6, _⟩ => ⟨S32x512, .f32⟩
  | .local _ .vmem, ⟨7, _⟩ => ⟨S1x512, .f32⟩
  | .local _ .vmem, ⟨8, _⟩ => ⟨S1x512, .f32⟩
  | .local _ .vmem, ⟨9, _⟩ => ⟨S32x512, .f32⟩
  | .local _ .vmem, ⟨10, _⟩ => ⟨S32x512, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S11008_S1x11008 : S11008.ShapeCasts S1x11008
  inb_S4096x512_S4096x512_0_0 : ∀ a, (![0, 0] : Fin 2 → Nat) a + S4096x512.size a ≤ S4096x512.size a
  h_S4096x512 : 0 < S4096x512.numel
  shapeCasts_S4096x512_S32x128x512 : S4096x512.ShapeCasts S32x128x512
  inb_S32x512_S32x512_0_0 : ∀ a, (![0, 0] : Fin 2 → Nat) a + S32x512.size a ≤ S32x512.size a
  h_S32x512 : 0 < S32x512.numel
  shapeCasts_S32x512_S32x1x512 : S32x512.ShapeCasts S32x1x512
  broadcasts_S32x1x512_S32x128x512 : S32x1x512.Broadcasts S32x128x512
  bitsLt_bf16_f32 : FTy.bits .bf16 < FTy.bits .f32
  shapeCasts_S32x128x512_S4096x512 : S32x128x512.ShapeCasts S4096x512
  inb_S32x4096_S32x4096_0_0 : ∀ a, (![0, 0] : Fin 2 → Nat) a + S32x4096.size a ≤ S32x4096.size a
  h_S32x4096 : 0 < S32x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S32x512 : S1x512.Broadcasts S32x512
  dot_S32x4096_S4096x512_S32x512_1_0_0_1_n_n_wf : DotDims.WF S32x4096 S4096x512 S32x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x4096.size a
  hwx0_0 : ∀ i : grid0.Coords, EltTy.bits .f32 = 32 ∨ (Rect.block (s := S32x4096) S32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x512.size a < S4096x11008.size a
  hwx0_1 : ∀ i : grid0.Coords, EltTy.bits .i32 = 32 ∨ (Rect.unit (s := S4096x11008) (fun a => cc0_transform_1 i a * S4096x512.size a) (fun a => (Pipeline.Clip.of (cc0_transform_1 i a) (S4096x512.size a) (S4096x11008.size a)).extent (S4096x512.size a)) fun a => Pipeline.Clip.inb (Pipeline.Clip.ok_of (hstart0_1 i a))).WholeWords (EltTy.packing .i32)
  hwxs0_1 : ∀ i : grid0.Coords, EltTy.bits .i32 = 32 ∨ (Rect.unit (s := S4096x512) (fun _ => 0) (fun a => (Pipeline.Clip.of (cc0_transform_1 i a) (S4096x512.size a) (S4096x11008.size a)).extent (S4096x512.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S32x512.size a < S32x11008.size a
  hwx0_2 : ∀ i : grid0.Coords, EltTy.bits .i32 = 32 ∨ (Rect.unit (s := S32x11008) (fun a => cc0_transform_2 i a * S32x512.size a) (fun a => (Pipeline.Clip.of (cc0_transform_2 i a) (S32x512.size a) (S32x11008.size a)).extent (S32x512.size a)) fun a => Pipeline.Clip.inb (Pipeline.Clip.ok_of (hstart0_2 i a))).WholeWords (EltTy.packing .i32)
  hwxs0_2 : ∀ i : grid0.Coords, EltTy.bits .i32 = 32 ∨ (Rect.unit (s := S32x512) (fun _ => 0) (fun a => (Pipeline.Clip.of (cc0_transform_2 i a) (S32x512.size a) (S32x11008.size a)).extent (S32x512.size a)) fun a => (Nat.zero_add _).trans_le (Pipeline.Clip.extent_le (Pipeline.Clip.ok_of (hstart0_2 i a)))).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S32x512.size a < S32x11008.size a
  hwx0_3 : ∀ i : grid0.Coords, EltTy.bits .f32 = 32 ∨ (Rect.unit (s := S32x11008) (fun a => cc0_transform_3 i a * S32x512.size a) (fun a => (Pipeline.Clip.of (cc0_transform_3 i a) (S32x512.size a) (S32x11008.size a)).extent (S32x512.size a)) fun a => Pipeline.Clip.inb (Pipeline.Clip.ok_of (hstart0_3 i a))).WholeWords (EltTy.packing .f32)
  hwxs0_3 : ∀ i : grid0.Coords, EltTy.bits .f32 = 32 ∨ (Rect.unit (s := S32x512) (fun _ => 0) (fun a => (Pipeline.Clip.of (cc0_transform_3 i a) (S32x512.size a) (S32x11008.size a)).extent (S32x512.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x512.size a < S1x11008.size a
  hwx0_4 : ∀ i : grid0.Coords, EltTy.bits .f32 = 32 ∨ (Rect.unit (s := S1x11008) (fun a => cc0_transform_4 i a * S1x512.size a) (fun a => (Pipeline.Clip.of (cc0_transform_4 i a) (S1x512.size a) (S1x11008.size a)).extent (S1x512.size a)) fun a => Pipeline.Clip.inb (Pipeline.Clip.ok_of (hstart0_4 i a))).WholeWords (EltTy.packing .f32)
  hwxs0_4 : ∀ i : grid0.Coords, EltTy.bits .f32 = 32 ∨ (Rect.unit (s := S1x512) (fun _ => 0) (fun a => (Pipeline.Clip.of (cc0_transform_4 i a) (S1x512.size a) (S1x11008.size a)).extent (S1x512.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S32x512.size a < S32x11008.size a
  hwx0_5 : ∀ i : grid0.Coords, EltTy.bits .f32 = 32 ∨ (Rect.unit (s := S32x11008) (fun a => cc0_transform_5 i a * S32x512.size a) (fun a => (Pipeline.Clip.of (cc0_transform_5 i a) (S32x512.size a) (S32x11008.size a)).extent (S32x512.size a)) fun a => Pipeline.Clip.inb (Pipeline.Clip.ok_of (hstart0_5 i a))).WholeWords (EltTy.packing .f32)
  hwxs0_5 : ∀ i : grid0.Coords, EltTy.bits .f32 = 32 ∨ (Rect.unit (s := S32x512) (fun _ => 0) (fun a => (Pipeline.Clip.of (cc0_transform_5 i a) (S32x512.size a) (S32x11008.size a)).extent (S32x512.size a)) fun a => (Nat.zero_add _).trans_le (Pipeline.Clip.extent_le (Pipeline.Clip.ok_of (hstart0_5 i a)))).WholeWords (EltTy.packing .f32)

variable [Facts₀]

def dot_S32x4096_S4096x512_S32x512_1_0_0_1_n_n : DotDims S32x4096 S4096x512 S32x512 where
  lhsContracting := [1]
  rhsContracting := [0]
  lhsNonContracting := [0]
  rhsNonContracting := [1]
  lhsBatch := []
  rhsBatch := []
  wf := dot_S32x4096_S4096x512_S32x512_1_0_0_1_n_n_wf

abbrev win0_0 : Pipeline.Window sig grid0 :=
  Pipeline.Window.ofSpec (Memref.whole main_arg0) S32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S4096x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S32x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg3) S32x512.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_call0_v0) S1x512.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v0) S32x512.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x4096 : Shape := ⟨2, ![32, 4096]⟩
abbrev S4096x11008 : Shape := ⟨2, ![4096, 11008]⟩
abbrev S32x11008 : Shape := ⟨2, ![32, 11008]⟩
abbrev S11008 : Shape := ⟨1, ![11008]⟩
abbrev S_ : Shape := ⟨0, ![]⟩
abbrev S32x128x11008 : Shape := ⟨3, ![32, 128, 11008]⟩
abbrev S1x11008 : Shape := ⟨2, ![1, 11008]⟩

abbrev nBuf : Space → Nat
  | .hbm => 23
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S4096x11008, .i32⟩
  | .hbm, ⟨2, _⟩ => ⟨S32x11008, .i32⟩
  | .hbm, ⟨3, _⟩ => ⟨S32x11008, .f32⟩
  | .hbm, ⟨4, _⟩ => ⟨S11008, .f32⟩
  | .hbm, ⟨5, _⟩ => ⟨S_, .i32⟩
  | .hbm, ⟨6, _⟩ => ⟨S4096x11008, .i32⟩
  | .hbm, ⟨7, _⟩ => ⟨S4096x11008, .i32⟩
  | .hbm, ⟨8, _⟩ => ⟨S4096x11008, .f32⟩
  | .hbm, ⟨9, _⟩ => ⟨S_, .i32⟩
  | .hbm, ⟨10, _⟩ => ⟨S32x11008, .i32⟩
  | .hbm, ⟨11, _⟩ => ⟨S32x11008, .i32⟩
  | .hbm, ⟨12, _⟩ => ⟨S32x11008, .f32⟩
  | .hbm, ⟨13, _⟩ => ⟨S32x128x11008, .f32⟩
  | .hbm, ⟨14, _⟩ => ⟨S4096x11008, .f32⟩
  | .hbm, ⟨15, _⟩ => ⟨S32x128x11008, .f32⟩
  | .hbm, ⟨16, _⟩ => ⟨S4096x11008, .f32⟩
  | .hbm, ⟨17, _⟩ => ⟨S4096x11008, .f32⟩
  | .hbm, ⟨18, _⟩ => ⟨S4096x11008, .f32⟩
  | .hbm, ⟨19, _⟩ => ⟨S32x11008, .f32⟩
  | .hbm, ⟨20, _⟩ => ⟨S1x11008, .f32⟩
  | .hbm, ⟨21, _⟩ => ⟨S32x11008, .f32⟩
  | .hbm, ⟨22, _⟩ => ⟨S32x11008, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S4096x11008 : S_.BroadcastsInDim S4096x11008 (![] : Fin 0 → Fin S4096x11008.rank)
  bcast_S_S32x11008 : S_.BroadcastsInDim S32x11008 (![] : Fin 0 → Fin S32x11008.rank)
  bcast_S32x11008_S32x128x11008_0_2 : S32x11008.BroadcastsInDim S32x128x11008 (![0, 2] : Fin 2 → Fin S32x128x11008.rank)
  shapeCasts_S32x128x11008_S4096x11008 : S32x128x11008.ShapeCasts S4096x11008
  bcast_S11008_S1x11008_1 : S11008.BroadcastsInDim S1x11008 (![1] : Fin 1 → Fin S1x11008.rank)
  bcast_S1x11008_S32x11008_0_1 : S1x11008.BroadcastsInDim S32x11008 (![0, 1] : Fin 2 → Fin S32x11008.rank)
  dot_S32x4096_S4096x11008_S32x11008_1_0_0_1_n_n_wf : DotDims.WF S32x4096 S4096x11008 S32x11008 [1] [0] [0] [1] [] []

variable [Facts₀]

def dot_S32x4096_S4096x11008_S32x11008_1_0_0_1_n_n : DotDims S32x4096 S4096x11008 S32x11008 where
  lhsContracting := [1]
  rhsContracting := [0]
  lhsNonContracting := [0]
  rhsNonContracting := [1]
  lhsBatch := []
  rhsBatch := []
  wf := dot_S32x4096_S4096x11008_S32x11008_1_0_0_1_n_n_wf

class Facts : Prop extends Facts₀ where

variable [Facts]
-- ==== Proof.StepBits.lean ====
/-
  One grid step of the quantised matrix product, as a statement about the six staging buffers.

  The step reads the activations (32 x 4096), a 4096 x 512 block of weight codes, the 32 x 512 blocks of zero
  points and of scales of the same 512 columns, and the 1 x 512 block of the bias, and overwrites the 32 x 512
  result buffer with ONE whole store: the product of the activations with the dequantised block, plus the bias
  row.  Nothing else is written, so the five input buffers end as they began, and what the result buffer held
  before plays no part in what it holds after.
-/
import proofs.«132616_j39084202394118_2_alg».proof.Proof.Gen.Kernel.Frame
import proofs.«132616_j39084202394118_2_alg».proof.Proof.Gen.Kernel.Skeleton

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the step reads and writes through -/

abbrev rAct : Rect S32x4096 := Rect.unit (s := S32x4096) ![0, 0] S32x4096.size inb_S32x4096_S32x4096_0_0
abbrev rCodes : Rect S4096x512 := Rect.unit (s := S4096x512) ![0, 0] S4096x512.size inb_S4096x512_S4096x512_0_0
abbrev rGroup : Rect S32x512 := Rect.unit (s := S32x512) ![0, 0] S32x512.size inb_S32x512_S32x512_0_0
abbrev rBias : Rect S1x512 := Rect.unit (s := S1x512) ![0, 0] S1x512.size inb_S1x512_S1x512_0_0

/-- What the result buffer holds after the step, from what the five input buffers hold: the one store's value,
    the product of the activations with the dequantised block plus the bias row, laid over the whole buffer. -/
def stepResult (x0 : Vec F S32x4096 .f32) (x1 : Vec F S4096x512 .i32) (x2 : Vec F S32x512 .i32)
    (x3 : Vec F S32x512 .f32) (x4 : Vec F S1x512 .f32) : Vec F S32x512 .f32 :=
  View.canon [⟨rGroup, k0_pay1 (View.ld x1 rCodes) (View.ld x2 rGroup) (View.ld x3 rGroup) (View.ld x0 rAct) (View.ld x4 rBias)⟩]

/-- The one store covers the result buffer: its rectangle is the whole buffer. -/
theorem store_covers (p0 : Vec F S32x512 .f32) (y : S32x512.Idx) :
    ∃ pc ∈ ([⟨rGroup, p0⟩] : List (View.Piece (Elt F) S32x512 .f32)), y ∈ pc.1.set :=
  View.cover_of_tiled [⟨rGroup, p0⟩] S32x512.size (by rfl) y

set_option maxHeartbeats 1000000 in
/-- The step on whole staging buffers: the five inputs at any contents `x0 … x4`, the result buffer at anything,
    runs to the inputs unchanged and the result buffer at `stepResult` of the inputs. -/
theorem step_triple (c : Dev nD) (E : Set ℕ) (i : grid0.Coords)
    (arg1 : Memref sig .tc .vmem S32x4096 .f32) (harg1 : arg1.IsWhole) (arg2 : Memref sig .tc .vmem S4096x512 .i32) (harg2 : arg2.IsWhole)
    (arg3 : Memref sig .tc .vmem S32x512 .i32) (harg3 : arg3.IsWhole) (arg4 : Memref sig .tc .vmem S32x512 .f32) (harg4 : arg4.IsWhole)
    (arg5 : Memref sig .tc .vmem S1x512 .f32) (harg5 : arg5.IsWhole) (arg6 : Memref sig .tc .vmem S32x512 .f32) (harg6 : arg6.IsWhole)
    (x0 : Vec F S32x4096 .f32) (x1 : Vec F S4096x512 .i32) (x2 : Vec F S32x512 .i32) (x3 : Vec F S32x512 .f32) (x4 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (stepResult x0 x1 x2 x3 x4)) -∗ K ⟨⟩))
      ⊢ wp frame (wpE (defs₀ (F := F)) Variants.none c none) E (cc0__awq_kernel i arg1 harg1 arg2 harg2 arg3 harg3 arg4 harg4 arg5 harg5 arg6 harg6) K := by
  simp only [cc0__awq_kernel_eq_skeleton]; unfold cc0__awq_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

end Cert.Kernel.Step

end
-- ==== Proof.StagedBits.lean ====
/-
  The pipeline around the step, as far as the ARGUMENT arrays are concerned.

  The grid has 22 points; point `t` works on columns `512 t … 512 t + 511` of the weight codes, the zero points,
  the scales, the bias row and the result.  The arrays have 11008 = 21 * 512 + 256 columns, so the last block hangs
  over the arrays' end by 256 columns: its fetch fills only the first 256 columns of each staging buffer, and what
  the other 256 hold is not named by anything.  The activations are fetched once, whole.

  This module states what each staging buffer holds after a step ON THE COLUMNS INSIDE THE ARRAY — for the five
  inputs the block that was fetched, unchanged by the step — and says nothing of the result's buffer.  That is enough
  for: the program runs to the end, nothing faults, and the argument arrays end as they began.
-/
import proofs.«132616_j39084202394118_2_alg».proof.Proof.StepBits

set_option maxRecDepth 16384

noncomputable section

namespace Cert.Kernel.Staged

open Cert.Kernel Cert.Kernel.Gen Cert.Kernel.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (res : Dev nD → Fin cfg0.N → S32x512.Idx → Elt F .f32)

/-- What each staging buffer holds after the step at point `t`, as far as it is stated: the activations' buffer the
    whole array; the four column-blocked inputs their block on the columns inside the array (zero words stand in for
    the columns past the array's end, which nothing reads back); the result's buffer `res t`, a parameter. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => 0#32) (iblk m c 1 t)
    | ⟨2, _⟩ => win0_2.fill (grid0.coords t) (fun _ => 0#32) (iblk m c 2 t)
    | ⟨3, _⟩ => win0_3.fill (grid0.coords t) (fun _ => Scalar.ofBits .f32 0#32) (iblk m c 3 t)
    | ⟨4, _⟩ => win0_4.fill (grid0.coords t) (fun _ => Scalar.ofBits .f32 0#32) (iblk m c 4 t)
    | ⟨5, _⟩ => res c t
  Φ _ := Pipeline.ΦA spec0 c
  q _ := fullShare
  owed _ := 0

theorem data_A (c : Dev nD) (w : Fin cfg0.W) : (data m res 0 c).A w = V m c (Pipeline.arrRef spec0 w) := by
  dsimp only [data]

theorem after_act (c : Dev nD) (t : Fin cfg0.N) : (data m res 0 c).after 0 t = iblk m c 0 t := by dsimp only [data]
theorem after_codes (c : Dev nD) (t : Fin cfg0.N) :
    (data m res 0 c).after 1 t = win0_1.fill (grid0.coords t) (fun _ => 0#32) (iblk m c 1 t) := by dsimp only [data]
theorem after_zeros (c : Dev nD) (t : Fin cfg0.N) :
    (data m res 0 c).after 2 t = win0_2.fill (grid0.coords t) (fun _ => 0#32) (iblk m c 2 t) := by dsimp only [data]
theorem after_scales (c : Dev nD) (t : Fin cfg0.N) :
    (data m res 0 c).after 3 t = win0_3.fill (grid0.coords t) (fun _ => Scalar.ofBits .f32 0#32) (iblk m c 3 t) := by dsimp only [data]
theorem after_bias (c : Dev nD) (t : Fin cfg0.N) :
    (data m res 0 c).after 4 t = win0_4.fill (grid0.coords t) (fun _ => Scalar.ofBits .f32 0#32) (iblk m c 4 t) := by dsimp only [data]
theorem after_res (c : Dev nD) (t : Fin cfg0.N) : (data m res 0 c).after 5 t = res c t := by dsimp only [data]

/-- The activations' buffer holds the whole array at every point: fetched at the first, kept since. -/
theorem before_act (c : Dev nD) (t : Fin cfg0.N) (d) : (data m res 0 c).before 0 t d = iblk m c 0 t :=
  before0_0_of m (data m res 0 c) (data_A m res c 0) (after_act m res c) t d

/-- A column-blocked input's buffer was fetched at this very point: it holds the block on the columns inside the
    array, and `d` — whatever was there — on the others. -/
theorem before_codes (c : Dev nD) (t : Fin cfg0.N) (d) :
    (data m res 0 c).before 1 t d = win0_1.fill (grid0.coords t) d (iblk m c 1 t) := by
  unfold Dat.before; rw [if_pos (fetch0_1 t)]; rfl
theorem before_zeros (c : Dev nD) (t : Fin cfg0.N) (d) :
    (data m res 0 c).before 2 t d = win0_2.fill (grid0.coords t) d (iblk m c 2 t) := by
  unfold Dat.before; rw [if_pos (fetch0_2 t)]; rfl
theorem before_scales (c : Dev nD) (t : Fin cfg0.N) (d) :
    (data m res 0 c).before 3 t d = win0_3.fill (grid0.coords t) d (iblk m c 3 t) := by
  unfold Dat.before; rw [if_pos (fetch0_3 t)]; rfl
theorem before_bias (c : Dev nD) (t : Fin cfg0.N) (d) :
    (data m res 0 c).before 4 t d = win0_4.fill (grid0.coords t) d (iblk m c 4 t) := by
  unfold Dat.before; rw [if_pos (fetch0_4 t)]; rfl

/-- The step at point `t`, on the buffers the pipeline hands it: the activations' buffer at the array, the four
    column-blocked inputs' at their blocks filled out with anything, the result's at anything.  The inputs' buffers
    come back as they were, the result's holding the step's result of exactly those contents. -/
theorem step_at (c : Dev nD) (t : Fin cfg0.N) (d1 : S4096x512.Idx → Elt F .i32) (d2 : S32x512.Idx → Elt F .i32)
    (d3 : S32x512.Idx → Elt F .f32) (d4 : S1x512.Idx → Elt F .f32) (K : PUnit → sProp 𝕄) :
    iprop(owns (c : Thread nD τ) (st0_0 t) fullShare (iblk m c 0 t)
        ∗ owns (c : Thread nD τ) (st0_1 t) fullShare (win0_1.fill (grid0.coords t) d1 (iblk m c 1 t))
        ∗ owns (c : Thread nD τ) (st0_2 t) fullShare (win0_2.fill (grid0.coords t) d2 (iblk m c 2 t))
        ∗ owns (c : Thread nD τ) (st0_3 t) fullShare (win0_3.fill (grid0.coords t) d3 (iblk m c 3 t))
        ∗ owns (c : Thread nD τ) (st0_4 t) fullShare (win0_4.fill (grid0.coords t) d4 (iblk m c 4 t))
        ∗ (∃ X, owns (c : Thread nD τ) (st0_5 t) fullShare X)
        ∗ (iprop(owns (c : Thread nD τ) (st0_0 t) fullShare (iblk m c 0 t)
            ∗ owns (c : Thread nD τ) (st0_1 t) fullShare (win0_1.fill (grid0.coords t) d1 (iblk m c 1 t))
            ∗ owns (c : Thread nD τ) (st0_2 t) fullShare (win0_2.fill (grid0.coords t) d2 (iblk m c 2 t))
            ∗ owns (c : Thread nD τ) (st0_3 t) fullShare (win0_3.fill (grid0.coords t) d3 (iblk m c 3 t))
            ∗ owns (c : Thread nD τ) (st0_4 t) fullShare (win0_4.fill (grid0.coords t) d4 (iblk m c 4 t))
            ∗ owns (c : Thread nD τ) (st0_5 t) fullShare
                (stepResult (iblk m c 0 t) (win0_1.fill (grid0.coords t) d1 (iblk m c 1 t)) (win0_2.fill (grid0.coords t) d2 (iblk m c 2 t))
                  (win0_3.fill (grid0.coords t) d3 (iblk m c 3 t)) (win0_4.fill (grid0.coords t) d4 (iblk m c 4 t)))) -∗ K ⟨⟩))
      ⊢ wp frame (wpE (defs₀ (F := F)) Variants.none c none) Set.univ (bodyAt0 t) K :=
  step_triple c Set.univ _ _ _ _ _ _ _ _ _ _ _ _ _ _ _ _ _ _ K

/-- The result's window is the one this module says nothing of. -/
def silent : Fin cfg0.W → Bool := fun | ⟨5, _⟩ => true | _ => false

/-- What the step is handed at point `t`, the windows one by one; -/
def handed (c : Dev nD) (t : Fin cfg0.N) : sProp 𝕄 :=
  iprop((data m res 0 c).Φ t.castSucc ∗ (data m res 0 c).owesAt () t.castSucc
    ∗ (∃ d, owns (c : Thread nD τ) (st0_0 t) fullShare ((data m res 0 c).before 0 t d))
    ∗ (∃ d, owns (c : Thread nD τ) (st0_1 t) fullShare ((data m res 0 c).before 1 t d))
    ∗ (∃ d, owns (c : Thread nD τ) (st0_2 t) fullShare ((data m res 0 c).before 2 t d))
    ∗ (∃ d, owns (c : Thread nD τ) (st0_3 t) fullShare ((data m res 0 c).before 3 t d))
    ∗ (∃ d, owns (c : Thread nD τ) (st0_4 t) fullShare ((data m res 0 c).before 4 t d))
    ∗ (∃ X, owns (c : Thread nD τ) (st0_5 t) fullShare X))

/-- and what it hands back: each column-blocked buffer stated on the columns inside the array only. -/
def handedBack (c : Dev nD) (t : Fin cfg0.N) : sProp 𝕄 :=
  iprop((data m res 0 c).Φ t.succ ∗ (data m res 0 c).owesAt () t.succ
    ∗ owns (c : Thread nD τ) (st0_0 t) fullShare ((data m res 0 c).after 0 t)
    ∗ (∃ d, owns (c : Thread nD τ) (st0_1 t) fullShare (win0_1.fill (grid0.coords t) d (win0_1.cut (grid0.coords t) ((data m res 0 c).after 1 t))))
    ∗ (∃ d, owns (c : Thread nD τ) (st0_2 t) fullShare (win0_2.fill (grid0.coords t) d (win0_2.cut (grid0.coords t) ((data m res 0 c).after 2 t))))
    ∗ (∃ d, owns (c : Thread nD τ) (st0_3 t) fullShare (win0_3.fill (grid0.coords t) d (win0_3.cut (grid0.coords t) ((data m res 0 c).after 3 t))))
    ∗ (∃ d, owns (c : Thread nD τ) (st0_4 t) fullShare (win0_4.fill (grid0.coords t) d (win0_4.cut (grid0.coords t) ((data m res 0 c).after 4 t))))
    ∗ (∃ X, owns (c : Thread nD τ) (st0_5 t) fullShare X))

theorem step_keeps_inputs (c : Dev nD) (t : Fin cfg0.N) :
    handed m res c t ⊢ wp frame (wpE (defs₀ (F := F)) Variants.none c none) Set.univ (bodyAt0 t) (fun _ => handedBack m res c t) := by
  unfold handed handedBack
  rw [show (data m res 0 c).Φ t.succ = (data m res 0 c).Φ t.castSucc from rfl,
    show (data m res 0 c).owesAt () t.succ = (data m res 0 c).owesAt () t.castSucc from rfl,
    after_act, after_codes, after_zeros, after_scales, after_bias,
    win0_1.cut_fill, win0_2.cut_fill, win0_3.cut_fill, win0_4.cut_fill]
  iintro ⟨HΦ, Ho, ⟨%d0, H0⟩, ⟨%d1, H1⟩, ⟨%d2, H2⟩, ⟨%d3, H3⟩, ⟨%d4, H4⟩, H5⟩
  rw [before_act m res c t d0, before_codes m res c t d1, before_zeros m res c t d2, before_scales m res c t d3, before_bias m res c t d4]
  iapply (step_at (F := F) m c t d1 d2 d3 d4 _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexists d1; iexact H1
  isplitl [H2]; · iexists d2; iexact H2
  isplitl [H3]; · iexists d3; iexact H3
  isplitl [H4]; · iexists d4; iexact H4
  iexists _; iexact H5

/-- The pipeline's obligation on the step, the result's window left unstated. -/
theorem obligation (c : Dev nD) : BodyObligationLoose (data (F := F) m res 0 c) (defs₀ (F := F)) Variants.none () Set.univ silent := fun t => by
  rw [bigSep_W0, bigSep_W0]
  exact step_keeps_inputs m res c t

set_option backward.isDefEq.respectTransparency.types false in
/-- Every weakly fair execution of the program terminates, nothing faulting; the arrays the step only reads end at
    what the data computes for them, and every buffer outside the pipeline as the region found it. -/
theorem run : θ_run defs (onTc (τ := τ) (main (F := F))) (s₀ m ρ)
    (Pipeline.RDat.FramePost cfg0 (fun c => (data m res 0 c).toRForget silent) (V m)) :=
  Pipeline.RDat.θ_run_frame cfgs (0 : Fin 1) launch0 defs₀ Variants.none (fun c => (data m res 0 c).toRForget silent) m ρ main
    (hbody := fun c => (obligation m res c).toRForget) (hshare := fun c => (data m res 0 c).share_full fun _ => rfl)
    (howed := fun _ _ => rfl) (V := V m) (hmain := hmain m Variants.none) (hA := data_A m res) (hΦ := fun _ _ => rfl)

include res in
/-- The program runs to the end, faults nowhere, and leaves its five argument arrays as they were: the four that
    are staged are inputs of the pipeline, never written back; the bias vector is outside the pipeline (its reshaped
    copy is what is staged). -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(((data m res 0 c).toRForget_arrAt_iff (fgt := silent) (w := 0) rfl _ _).mp ((h c).1 0)).trans
        (((data m res 0 c).arrAt_in 0 rfl _).trans ((data_A m res c 0).trans (V_main_arg0 m c))),
      (((data m res 0 c).toRForget_arrAt_iff (fgt := silent) (w := 1) rfl _ _).mp ((h c).1 1)).trans
        (((data m res 0 c).arrAt_in 1 rfl _).trans ((data_A m res c 1).trans (V_main_arg1 m c))),
      (((data m res 0 c).toRForget_arrAt_iff (fgt := silent) (w := 2) rfl _ _).mp ((h c).1 2)).trans
        (((data m res 0 c).arrAt_in 2 rfl _).trans ((data_A m res c 2).trans (V_main_arg2 m c))),
      (((data m res 0 c).toRForget_arrAt_iff (fgt := silent) (w := 3) rfl _ _).mp ((h c).1 3)).trans
        (((data m res 0 c).arrAt_in 3 rfl _).trans ((data_A m res c 3).trans (V_main_arg3 m c))),
      ((h c).2 main_arg4 (Pipeline.mem_restRefs_of main_arg4 (by decide) (by decide))).trans (V_main_arg4 m c)⟩)
    (run m ρ res)

/-! ## The result's window stated too

When the step's result ON THE COLUMNS INSIDE THE ARRAY does not depend on what the input buffers hold past the
array's end — and is the parameter `res` there — the result's window can be stated like the others. -/

/-- What the step hands back, every window stated on its part inside the array. -/
def handedBackAll (c : Dev nD) (t : Fin cfg0.N) : sProp 𝕄 :=
  iprop((data m res 0 c).Φ t.succ ∗ (data m res 0 c).owesAt () t.succ
    ∗ owns (c : Thread nD τ) (st0_0 t) fullShare ((data m res 0 c).after 0 t)
    ∗ (∃ d, owns (c : Thread nD τ) (st0_1 t) fullShare (win0_1.fill (grid0.coords t) d (win0_1.cut (grid0.coords t) ((data m res 0 c).after 1 t))))
    ∗ (∃ d, owns (c : Thread nD τ) (st0_2 t) fullShare (win0_2.fill (grid0.coords t) d (win0_2.cut (grid0.coords t) ((data m res 0 c).after 2 t))))
    ∗ (∃ d, owns (c : Thread nD τ) (st0_3 t) fullShare (win0_3.fill (grid0.coords t) d (win0_3.cut (grid0.coords t) ((data m res 0 c).after 3 t))))
    ∗ (∃ d, owns (c : Thread nD τ) (st0_4 t) fullShare (win0_4.fill (grid0.coords t) d (win0_4.cut (grid0.coords t) ((data m res 0 c).after 4 t))))
    ∗ (∃ d, owns (c : Thread nD τ) (st0_5 t) fullShare (win0_5.fill (grid0.coords t) d (win0_5.cut (grid0.coords t) ((data m res 0 c).after 5 t)))))

/-- What it is handed, the result's buffer as the pipeline states it. -/
def handedAll (c : Dev nD) (t : Fin cfg0.N) : sProp 𝕄 :=
  iprop((data m res 0 c).Φ t.castSucc ∗ (data m res 0 c).owesAt () t.castSucc
    ∗ (∃ d, owns (c : Thread nD τ) (st0_0 t) fullShare ((data m res 0 c).before 0 t d))
    ∗ (∃ d, owns (c : Thread nD τ) (st0_1 t) fullShare ((data m res 0 c).before 1 t d))
    ∗ (∃ d, owns (c : Thread nD τ) (st0_2 t) fullShare ((data m res 0 c).before 2 t d))
    ∗ (∃ d, owns (c : Thread nD τ) (st0_3 t) fullShare ((data m res 0 c).before 3 t d))
    ∗ (∃ d, owns (c : Thread nD τ) (st0_4 t) fullShare ((data m res 0 c).before 4 t d))
    ∗ (∃ d, owns (c : Thread nD τ) (st0_5 t) fullShare ((data m res 0 c).before 5 t d)))

/-- The columns of the step's result inside the array are `res`'s, whatever fills the input buffers past the
    array's end: the hypothesis under which the result's window is stated. -/
def ColumnsAre (c : Dev nD) : Prop :=
  ∀ (t : Fin cfg0.N) (d1 : S4096x512.Idx → Elt F .i32) (d2 : S32x512.Idx → Elt F .i32) (d3 : S32x512.Idx → Elt F .f32) (d4 : S1x512.Idx → Elt F .f32),
    win0_5.cut (grid0.coords t)
        (stepResult (iblk m c 0 t) (win0_1.fill (grid0.coords t) d1 (iblk m c 1 t)) (win0_2.fill (grid0.coords t) d2 (iblk m c 2 t))
          (win0_3.fill (grid0.coords t) d3 (iblk m c 3 t)) (win0_4.fill (grid0.coords t) d4 (iblk m c 4 t)))
      = win0_5.cut (grid0.coords t) (res c t)

theorem step_all (c : Dev nD) (hcol : ColumnsAre m res c) (t : Fin cfg0.N) :
    handedAll m res c t ⊢ wp frame (wpE (defs₀ (F := F)) Variants.none c none) Set.univ (bodyAt0 t) (fun _ => handedBackAll m res c t) := by
  unfold handedAll handedBackAll
  rw [show (data m res 0 c).Φ t.succ = (data m res 0 c).Φ t.castSucc from rfl,
    show (data m res 0 c).owesAt () t.succ = (data m res 0 c).owesAt () t.castSucc from rfl,
    after_act, after_codes, after_zeros, after_scales, after_bias, after_res,
    win0_1.cut_fill, win0_2.cut_fill, win0_3.cut_fill, win0_4.cut_fill]
  iintro ⟨HΦ, Ho, ⟨%d0, H0⟩, ⟨%d1, H1⟩, ⟨%d2, H2⟩, ⟨%d3, H3⟩, ⟨%d4, H4⟩, ⟨%d5, H5⟩⟩
  rw [before_act m res c t d0, before_codes m res c t d1, before_zeros m res c t d2, before_scales m res c t d3, before_bias m res c t d4]
  iapply (step_at (F := F) m c t d1 d2 d3 d4 _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexists d1; iexact H1
  isplitl [H2]; · iexists d2; iexact H2
  isplitl [H3]; · iexists d3; iexact H3
  isplitl [H4]; · iexists d4; iexact H4
  iexists _
  rw [win0_5.fill_congr_cut (grid0.coords t) (hcol t d1 d2 d3 d4)]
  iexact H5

/-- The pipeline's obligation on the step, every window stated. -/
theorem obligation_all (c : Dev nD) (hcol : ColumnsAre m res c) :
    BodyObligationLoose (data (F := F) m res 0 c) (defs₀ (F := F)) Variants.none () Set.univ := fun t => by
  rw [bigSep_W0, bigSep_W0]
  exact step_all m res c hcol t

set_option backward.isDefEq.respectTransparency.types false in
/-- Every weakly fair execution terminates, nothing faulting, with every array of the pipeline at what the data
    computes for it: the result array its entry contents overwritten, point by point, by `res` on each block's part
    inside the array. -/
theorem run_all (hcol : ∀ c, ColumnsAre m res c) : θ_run defs (onTc (τ := τ) (main (F := F))) (s₀ m ρ)
    (Pipeline.FramePost cfgs (data m res) 0 (V m)) :=
  Pipeline.θ_run_frame cfgs (data m res) (0 : Fin 1) launch0 defs₀ Variants.none m ρ main
    (hbody := fun c => obligation_all m res c (hcol c)) (hshare := fun c => (data m res 0 c).share_full fun _ => rfl)
    (howed := fun _ _ => rfl) (V := V m) (hmain := hmain m Variants.none) (hA := data_A m res) (hΦ := fun _ _ => rfl)

end Cert.Kernel.Staged

end
-- ==== Proof.StepIdeal.lean ====
/-
  One grid step of the quantised matrix product, as a statement about the six staging buffers.

  The step reads the activations (32 x 4096), a 4096 x 512 block of weight codes, the 32 x 512 blocks of zero
  points and of scales of the same 512 columns, and the 1 x 512 block of the bias, and overwrites the 32 x 512
  result buffer with ONE whole store: the product of the activations with the dequantised block, plus the bias
  row.  Nothing else is written, so the five input buffers end as they began, and what the result buffer held
  before plays no part in what it holds after.
-/
import proofs.«132616_j39084202394118_2_alg».proof.Proof.Gen.KernelIdeal.Frame
import proofs.«132616_j39084202394118_2_alg».proof.Proof.Gen.KernelIdeal.Skeleton

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the step reads and writes through -/

abbrev rAct : Rect S32x4096 := Rect.unit (s := S32x4096) ![0, 0] S32x4096.size inb_S32x4096_S32x4096_0_0
abbrev rCodes : Rect S4096x512 := Rect.unit (s := S4096x512) ![0, 0] S4096x512.size inb_S4096x512_S4096x512_0_0
abbrev rGroup : Rect S32x512 := Rect.unit (s := S32x512) ![0, 0] S32x512.size inb_S32x512_S32x512_0_0
abbrev rBias : Rect S1x512 := Rect.unit (s := S1x512) ![0, 0] S1x512.size inb_S1x512_S1x512_0_0

/-- What the result buffer holds after the step, from what the five input buffers hold: the one store's value,
    the product of the activations with the dequantised block plus the bias row, laid over the whole buffer. -/
def stepResult (x0 : Vec F S32x4096 .f32) (x1 : Vec F S4096x512 .i32) (x2 : Vec F S32x512 .i32)
    (x3 : Vec F S32x512 .f32) (x4 : Vec F S1x512 .f32) : Vec F S32x512 .f32 :=
  View.canon [⟨rGroup, k0_pay1 (View.ld x1 rCodes) (View.ld x2 rGroup) (View.ld x3 rGroup) (View.ld x0 rAct) (View.ld x4 rBias)⟩]

/-- The one store covers the result buffer: its rectangle is the whole buffer. -/
theorem store_covers (p0 : Vec F S32x512 .f32) (y : S32x512.Idx) :
    ∃ pc ∈ ([⟨rGroup, p0⟩] : List (View.Piece (Elt F) S32x512 .f32)), y ∈ pc.1.set :=
  View.cover_of_tiled [⟨rGroup, p0⟩] S32x512.size (by rfl) y

set_option maxHeartbeats 1000000 in
/-- The step on whole staging buffers: the five inputs at any contents `x0 … x4`, the result buffer at anything,
    runs to the inputs unchanged and the result buffer at `stepResult` of the inputs. -/
theorem step_triple (c : Dev nD) (E : Set ℕ) (i : grid0.Coords)
    (arg1 : Memref sig .tc .vmem S32x4096 .f32) (harg1 : arg1.IsWhole) (arg2 : Memref sig .tc .vmem S4096x512 .i32) (harg2 : arg2.IsWhole)
    (arg3 : Memref sig .tc .vmem S32x512 .i32) (harg3 : arg3.IsWhole) (arg4 : Memref sig .tc .vmem S32x512 .f32) (harg4 : arg4.IsWhole)
    (arg5 : Memref sig .tc .vmem S1x512 .f32) (harg5 : arg5.IsWhole) (arg6 : Memref sig .tc .vmem S32x512 .f32) (harg6 : arg6.IsWhole)
    (x0 : Vec F S32x4096 .f32) (x1 : Vec F S4096x512 .i32) (x2 : Vec F S32x512 .i32) (x3 : Vec F S32x512 .f32) (x4 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (stepResult x0 x1 x2 x3 x4)) -∗ K ⟨⟩))
      ⊢ wp frame (wpE (defs₀ (F := F)) Variants.none c none) E (cc0__awq_kernel i arg1 harg1 arg2 harg2 arg3 harg3 arg4 harg4 arg5 harg5 arg6 harg6) K := by
  simp only [cc0__awq_kernel_eq_skeleton]; unfold cc0__awq_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

end Cert.KernelIdeal.Step

end
-- ==== Proof.StagedIdeal.lean ====
/-
  The pipeline around the step, as far as the ARGUMENT arrays are concerned.

  The grid has 22 points; point `t` works on columns `512 t … 512 t + 511` of the weight codes, the zero points,
  the scales, the bias row and the result.  The arrays have 11008 = 21 * 512 + 256 columns, so the last block hangs
  over the arrays' end by 256 columns: its fetch fills only the first 256 columns of each staging buffer, and what
  the other 256 hold is not named by anything.  The activations are fetched once, whole.

  This module states what each staging buffer holds after a step ON THE COLUMNS INSIDE THE ARRAY — for the five
  inputs the block that was fetched, unchanged by the step — and says nothing of the result's buffer.  That is enough
  for: the program runs to the end, nothing faults, and the argument arrays end as they began.
-/
import proofs.«132616_j39084202394118_2_alg».proof.Proof.StepIdeal

set_option maxRecDepth 16384

noncomputable section

namespace Cert.KernelIdeal.Staged

open Cert.KernelIdeal Cert.KernelIdeal.Gen Cert.KernelIdeal.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (res : Dev nD → Fin cfg0.N → S32x512.Idx → Elt F .f32)

/-- What each staging buffer holds after the step at point `t`, as far as it is stated: the activations' buffer the
    whole array; the four column-blocked inputs their block on the columns inside the array (zero words stand in for
    the columns past the array's end, which nothing reads back); the result's buffer `res t`, a parameter. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => 0#32) (iblk m c 1 t)
    | ⟨2, _⟩ => win0_2.fill (grid0.coords t) (fun _ => 0#32) (iblk m c 2 t)
    | ⟨3, _⟩ => win0_3.fill (grid0.coords t) (fun _ => Scalar.ofBits .f32 0#32) (iblk m c 3 t)
    | ⟨4, _⟩ => win0_4.fill (grid0.coords t) (fun _ => Scalar.ofBits .f32 0#32) (iblk m c 4 t)
    | ⟨5, _⟩ => res c t
  Φ _ := Pipeline.ΦA spec0 c
  q _ := fullShare
  owed _ := 0

theorem data_A (c : Dev nD) (w : Fin cfg0.W) : (data m res 0 c).A w = V m c (Pipeline.arrRef spec0 w) := by
  dsimp only [data]

theorem after_act (c : Dev nD) (t : Fin cfg0.N) : (data m res 0 c).after 0 t = iblk m c 0 t := by dsimp only [data]
theorem after_codes (c : Dev nD) (t : Fin cfg0.N) :
    (data m res 0 c).after 1 t = win0_1.fill (grid0.coords t) (fun _ => 0#32) (iblk m c 1 t) := by dsimp only [data]
theorem after_zeros (c : Dev nD) (t : Fin cfg0.N) :
    (data m res 0 c).after 2 t = win0_2.fill (grid0.coords t) (fun _ => 0#32) (iblk m c 2 t) := by dsimp only [data]
theorem after_scales (c : Dev nD) (t : Fin cfg0.N) :
    (data m res 0 c).after 3 t = win0_3.fill (grid0.coords t) (fun _ => Scalar.ofBits .f32 0#32) (iblk m c 3 t) := by dsimp only [data]
theorem after_bias (c : Dev nD) (t : Fin cfg0.N) :
    (data m res 0 c).after 4 t = win0_4.fill (grid0.coords t) (fun _ => Scalar.ofBits .f32 0#32) (iblk m c 4 t) := by dsimp only [data]
theorem after_res (c : Dev nD) (t : Fin cfg0.N) : (data m res 0 c).after 5 t = res c t := by dsimp only [data]

/-- The activations' buffer holds the whole array at every point: fetched at the first, kept since. -/
theorem before_act (c : Dev nD) (t : Fin cfg0.N) (d) : (data m res 0 c).before 0 t d = iblk m c 0 t :=
  before0_0_of m (data m res 0 c) (data_A m res c 0) (after_act m res c) t d

/-- A column-blocked input's buffer was fetched at this very point: it holds the block on the columns inside the
    array, and `d` — whatever was there — on the others. -/
theorem before_codes (c : Dev nD) (t : Fin cfg0.N) (d) :
    (data m res 0 c).before 1 t d = win0_1.fill (grid0.coords t) d (iblk m c 1 t) := by
  unfold Dat.before; rw [if_pos (fetch0_1 t)]; rfl
theorem before_zeros (c : Dev nD) (t : Fin cfg0.N) (d) :
    (data m res 0 c).before 2 t d = win0_2.fill (grid0.coords t) d (iblk m c 2 t) := by
  unfold Dat.before; rw [if_pos (fetch0_2 t)]; rfl
theorem before_scales (c : Dev nD) (t : Fin cfg0.N) (d) :
    (data m res 0 c).before 3 t d = win0_3.fill (grid0.coords t) d (iblk m c 3 t) := by
  unfold Dat.before; rw [if_pos (fetch0_3 t)]; rfl
theorem before_bias (c : Dev nD) (t : Fin cfg0.N) (d) :
    (data m res 0 c).before 4 t d = win0_4.fill (grid0.coords t) d (iblk m c 4 t) := by
  unfold Dat.before; rw [if_pos (fetch0_4 t)]; rfl

/-- The step at point `t`, on the buffers the pipeline hands it: the activations' buffer at the array, the four
    column-blocked inputs' at their blocks filled out with anything, the result's at anything.  The inputs' buffers
    come back as they were, the result's holding the step's result of exactly those contents. -/
theorem step_at (c : Dev nD) (t : Fin cfg0.N) (d1 : S4096x512.Idx → Elt F .i32) (d2 : S32x512.Idx → Elt F .i32)
    (d3 : S32x512.Idx → Elt F .f32) (d4 : S1x512.Idx → Elt F .f32) (K : PUnit → sProp 𝕄) :
    iprop(owns (c : Thread nD τ) (st0_0 t) fullShare (iblk m c 0 t)
        ∗ owns (c : Thread nD τ) (st0_1 t) fullShare (win0_1.fill (grid0.coords t) d1 (iblk m c 1 t))
        ∗ owns (c : Thread nD τ) (st0_2 t) fullShare (win0_2.fill (grid0.coords t) d2 (iblk m c 2 t))
        ∗ owns (c : Thread nD τ) (st0_3 t) fullShare (win0_3.fill (grid0.coords t) d3 (iblk m c 3 t))
        ∗ owns (c : Thread nD τ) (st0_4 t) fullShare (win0_4.fill (grid0.coords t) d4 (iblk m c 4 t))
        ∗ (∃ X, owns (c : Thread nD τ) (st0_5 t) fullShare X)
        ∗ (iprop(owns (c : Thread nD τ) (st0_0 t) fullShare (iblk m c 0 t)
            ∗ owns (c : Thread nD τ) (st0_1 t) fullShare (win0_1.fill (grid0.coords t) d1 (iblk m c 1 t))
            ∗ owns (c : Thread nD τ) (st0_2 t) fullShare (win0_2.fill (grid0.coords t) d2 (iblk m c 2 t))
            ∗ owns (c : Thread nD τ) (st0_3 t) fullShare (win0_3.fill (grid0.coords t) d3 (iblk m c 3 t))
            ∗ owns (c : Thread nD τ) (st0_4 t) fullShare (win0_4.fill (grid0.coords t) d4 (iblk m c 4 t))
            ∗ owns (c : Thread nD τ) (st0_5 t) fullShare
                (stepResult (iblk m c 0 t) (win0_1.fill (grid0.coords t) d1 (iblk m c 1 t)) (win0_2.fill (grid0.coords t) d2 (iblk m c 2 t))
                  (win0_3.fill (grid0.coords t) d3 (iblk m c 3 t)) (win0_4.fill (grid0.coords t) d4 (iblk m c 4 t)))) -∗ K ⟨⟩))
      ⊢ wp frame (wpE (defs₀ (F := F)) Variants.none c none) Set.univ (bodyAt0 t) K :=
  step_triple c Set.univ _ _ _ _ _ _ _ _ _ _ _ _ _ _ _ _ _ _ K

/-- The result's window is the one this module says nothing of. -/
def silent : Fin cfg0.W → Bool := fun | ⟨5, _⟩ => true | _ => false

/-- What the step is handed at point `t`, the windows one by one; -/
def handed (c : Dev nD) (t : Fin cfg0.N) : sProp 𝕄 :=
  iprop((data m res 0 c).Φ t.castSucc ∗ (data m res 0 c).owesAt () t.castSucc
    ∗ (∃ d, owns (c : Thread nD τ) (st0_0 t) fullShare ((data m res 0 c).before 0 t d))
    ∗ (∃ d, owns (c : Thread nD τ) (st0_1 t) fullShare ((data m res 0 c).before 1 t d))
    ∗ (∃ d, owns (c : Thread nD τ) (st0_2 t) fullShare ((data m res 0 c).before 2 t d))
    ∗ (∃ d, owns (c : Thread nD τ) (st0_3 t) fullShare ((data m res 0 c).before 3 t d))
    ∗ (∃ d, owns (c : Thread nD τ) (st0_4 t) fullShare ((data m res 0 c).before 4 t d))
    ∗ (∃ X, owns (c : Thread nD τ) (st0_5 t) fullShare X))

/-- and what it hands back: each column-blocked buffer stated on the columns inside the array only. -/
def handedBack (c : Dev nD) (t : Fin cfg0.N) : sProp 𝕄 :=
  iprop((data m res 0 c).Φ t.succ ∗ (data m res 0 c).owesAt () t.succ
    ∗ owns (c : Thread nD τ) (st0_0 t) fullShare ((data m res 0 c).after 0 t)
    ∗ (∃ d, owns (c : Thread nD τ) (st0_1 t) fullShare (win0_1.fill (grid0.coords t) d (win0_1.cut (grid0.coords t) ((data m res 0 c).after 1 t))))
    ∗ (∃ d, owns (c : Thread nD τ) (st0_2 t) fullShare (win0_2.fill (grid0.coords t) d (win0_2.cut (grid0.coords t) ((data m res 0 c).after 2 t))))
    ∗ (∃ d, owns (c : Thread nD τ) (st0_3 t) fullShare (win0_3.fill (grid0.coords t) d (win0_3.cut (grid0.coords t) ((data m res 0 c).after 3 t))))
    ∗ (∃ d, owns (c : Thread nD τ) (st0_4 t) fullShare (win0_4.fill (grid0.coords t) d (win0_4.cut (grid0.coords t) ((data m res 0 c).after 4 t))))
    ∗ (∃ X, owns (c : Thread nD τ) (st0_5 t) fullShare X))

theorem step_keeps_inputs (c : Dev nD) (t : Fin cfg0.N) :
    handed m res c t ⊢ wp frame (wpE (defs₀ (F := F)) Variants.none c none) Set.univ (bodyAt0 t) (fun _ => handedBack m res c t) := by
  unfold handed handedBack
  rw [show (data m res 0 c).Φ t.succ = (data m res 0 c).Φ t.castSucc from rfl,
    show (data m res 0 c).owesAt () t.succ = (data m res 0 c).owesAt () t.castSucc from rfl,
    after_act, after_codes, after_zeros, after_scales, after_bias,
    win0_1.cut_fill, win0_2.cut_fill, win0_3.cut_fill, win0_4.cut_fill]
  iintro ⟨HΦ, Ho, ⟨%d0, H0⟩, ⟨%d1, H1⟩, ⟨%d2, H2⟩, ⟨%d3, H3⟩, ⟨%d4, H4⟩, H5⟩
  rw [before_act m res c t d0, before_codes m res c t d1, before_zeros m res c t d2, before_scales m res c t d3, before_bias m res c t d4]
  iapply (step_at (F := F) m c t d1 d2 d3 d4 _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexists d1; iexact H1
  isplitl [H2]; · iexists d2; iexact H2
  isplitl [H3]; · iexists d3; iexact H3
  isplitl [H4]; · iexists d4; iexact H4
  iexists _; iexact H5

/-- The pipeline's obligation on the step, the result's window left unstated. -/
theorem obligation (c : Dev nD) : BodyObligationLoose (data (F := F) m res 0 c) (defs₀ (F := F)) Variants.none () Set.univ silent := fun t => by
  rw [bigSep_W0, bigSep_W0]
  exact step_keeps_inputs m res c t

set_option backward.isDefEq.respectTransparency.types false in
/-- Every weakly fair execution of the program terminates, nothing faulting; the arrays the step only reads end at
    what the data computes for them, and every buffer outside the pipeline as the region found it. -/
theorem run : θ_run defs (onTc (τ := τ) (main (F := F))) (s₀ m ρ)
    (Pipeline.RDat.FramePost cfg0 (fun c => (data m res 0 c).toRForget silent) (V m)) :=
  Pipeline.RDat.θ_run_frame cfgs (0 : Fin 1) launch0 defs₀ Variants.none (fun c => (data m res 0 c).toRForget silent) m ρ main
    (hbody := fun c => (obligation m res c).toRForget) (hshare := fun c => (data m res 0 c).share_full fun _ => rfl)
    (howed := fun _ _ => rfl) (V := V m) (hmain := hmain m Variants.none) (hA := data_A m res) (hΦ := fun _ _ => rfl)

include res in
/-- The program runs to the end, faults nowhere, and leaves its five argument arrays as they were: the four that
    are staged are inputs of the pipeline, never written back; the bias vector is outside the pipeline (its reshaped
    copy is what is staged). -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(((data m res 0 c).toRForget_arrAt_iff (fgt := silent) (w := 0) rfl _ _).mp ((h c).1 0)).trans
        (((data m res 0 c).arrAt_in 0 rfl _).trans ((data_A m res c 0).trans (V_main_arg0 m c))),
      (((data m res 0 c).toRForget_arrAt_iff (fgt := silent) (w := 1) rfl _ _).mp ((h c).1 1)).trans
        (((data m res 0 c).arrAt_in 1 rfl _).trans ((data_A m res c 1).trans (V_main_arg1 m c))),
      (((data m res 0 c).toRForget_arrAt_iff (fgt := silent) (w := 2) rfl _ _).mp ((h c).1 2)).trans
        (((data m res 0 c).arrAt_in 2 rfl _).trans ((data_A m res c 2).trans (V_main_arg2 m c))),
      (((data m res 0 c).toRForget_arrAt_iff (fgt := silent) (w := 3) rfl _ _).mp ((h c).1 3)).trans
        (((data m res 0 c).arrAt_in 3 rfl _).trans ((data_A m res c 3).trans (V_main_arg3 m c))),
      ((h c).2 main_arg4 (Pipeline.mem_restRefs_of main_arg4 (by decide) (by decide))).trans (V_main_arg4 m c)⟩)
    (run m ρ res)

/-! ## The result's window stated too

When the step's result ON THE COLUMNS INSIDE THE ARRAY does not depend on what the input buffers hold past the
array's end — and is the parameter `res` there — the result's window can be stated like the others. -/

/-- What the step hands back, every window stated on its part inside the array. -/
def handedBackAll (c : Dev nD) (t : Fin cfg0.N) : sProp 𝕄 :=
  iprop((data m res 0 c).Φ t.succ ∗ (data m res 0 c).owesAt () t.succ
    ∗ owns (c : Thread nD τ) (st0_0 t) fullShare ((data m res 0 c).after 0 t)
    ∗ (∃ d, owns (c : Thread nD τ) (st0_1 t) fullShare (win0_1.fill (grid0.coords t) d (win0_1.cut (grid0.coords t) ((data m res 0 c).after 1 t))))
    ∗ (∃ d, owns (c : Thread nD τ) (st0_2 t) fullShare (win0_2.fill (grid0.coords t) d (win0_2.cut (grid0.coords t) ((data m res 0 c).after 2 t))))
    ∗ (∃ d, owns (c : Thread nD τ) (st0_3 t) fullShare (win0_3.fill (grid0.coords t) d (win0_3.cut (grid0.coords t) ((data m res 0 c).after 3 t))))
    ∗ (∃ d, owns (c : Thread nD τ) (st0_4 t) fullShare (win0_4.fill (grid0.coords t) d (win0_4.cut (grid0.coords t) ((data m res 0 c).after 4 t))))
    ∗ (∃ d, owns (c : Thread nD τ) (st0_5 t) fullShare (win0_5.fill (grid0.coords t) d (win0_5.cut (grid0.coords t) ((data m res 0 c).after 5 t)))))

/-- What it is handed, the result's buffer as the pipeline states it. -/
def handedAll (c : Dev nD) (t : Fin cfg0.N) : sProp 𝕄 :=
  iprop((data m res 0 c).Φ t.castSucc ∗ (data m res 0 c).owesAt () t.castSucc
    ∗ (∃ d, owns (c : Thread nD τ) (st0_0 t) fullShare ((data m res 0 c).before 0 t d))
    ∗ (∃ d, owns (c : Thread nD τ) (st0_1 t) fullShare ((data m res 0 c).before 1 t d))
    ∗ (∃ d, owns (c : Thread nD τ) (st0_2 t) fullShare ((data m res 0 c).before 2 t d))
    ∗ (∃ d, owns (c : Thread nD τ) (st0_3 t) fullShare ((data m res 0 c).before 3 t d))
    ∗ (∃ d, owns (c : Thread nD τ) (st0_4 t) fullShare ((data m res 0 c).before 4 t d))
    ∗ (∃ d, owns (c : Thread nD τ) (st0_5 t) fullShare ((data m res 0 c).before 5 t d)))

/-- The columns of the step's result inside the array are `res`'s, whatever fills the input buffers past the
    array's end: the hypothesis under which the result's window is stated. -/
def ColumnsAre (c : Dev nD) : Prop :=
  ∀ (t : Fin cfg0.N) (d1 : S4096x512.Idx → Elt F .i32) (d2 : S32x512.Idx → Elt F .i32) (d3 : S32x512.Idx → Elt F .f32) (d4 : S1x512.Idx → Elt F .f32),
    win0_5.cut (grid0.coords t)
        (stepResult (iblk m c 0 t) (win0_1.fill (grid0.coords t) d1 (iblk m c 1 t)) (win0_2.fill (grid0.coords t) d2 (iblk m c 2 t))
          (win0_3.fill (grid0.coords t) d3 (iblk m c 3 t)) (win0_4.fill (grid0.coords t) d4 (iblk m c 4 t)))
      = win0_5.cut (grid0.coords t) (res c t)

theorem step_all (c : Dev nD) (hcol : ColumnsAre m res c) (t : Fin cfg0.N) :
    handedAll m res c t ⊢ wp frame (wpE (defs₀ (F := F)) Variants.none c none) Set.univ (bodyAt0 t) (fun _ => handedBackAll m res c t) := by
  unfold handedAll handedBackAll
  rw [show (data m res 0 c).Φ t.succ = (data m res 0 c).Φ t.castSucc from rfl,
    show (data m res 0 c).owesAt () t.succ = (data m res 0 c).owesAt () t.castSucc from rfl,
    after_act, after_codes, after_zeros, after_scales, after_bias, after_res,
    win0_1.cut_fill, win0_2.cut_fill, win0_3.cut_fill, win0_4.cut_fill]
  iintro ⟨HΦ, Ho, ⟨%d0, H0⟩, ⟨%d1, H1⟩, ⟨%d2, H2⟩, ⟨%d3, H3⟩, ⟨%d4, H4⟩, ⟨%d5, H5⟩⟩
  rw [before_act m res c t d0, before_codes m res c t d1, before_zeros m res c t d2, before_scales m res c t d3, before_bias m res c t d4]
  iapply (step_at (F := F) m c t d1 d2 d3 d4 _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexists d1; iexact H1
  isplitl [H2]; · iexists d2; iexact H2
  isplitl [H3]; · iexists d3; iexact H3
  isplitl [H4]; · iexists d4; iexact H4
  iexists _
  rw [win0_5.fill_congr_cut (grid0.coords t) (hcol t d1 d2 d3 d4)]
  iexact H5

/-- The pipeline's obligation on the step, every window stated. -/
theorem obligation_all (c : Dev nD) (hcol : ColumnsAre m res c) :
    BodyObligationLoose (data (F := F) m res 0 c) (defs₀ (F := F)) Variants.none () Set.univ := fun t => by
  rw [bigSep_W0, bigSep_W0]
  exact step_all m res c hcol t

set_option backward.isDefEq.respectTransparency.types false in
/-- Every weakly fair execution terminates, nothing faulting, with every array of the pipeline at what the data
    computes for it: the result array its entry contents overwritten, point by point, by `res` on each block's part
    inside the array. -/
theorem run_all (hcol : ∀ c, ColumnsAre m res c) : θ_run defs (onTc (τ := τ) (main (F := F))) (s₀ m ρ)
    (Pipeline.FramePost cfgs (data m res) 0 (V m)) :=
  Pipeline.θ_run_frame cfgs (data m res) (0 : Fin 1) launch0 defs₀ Variants.none m ρ main
    (hbody := fun c => obligation_all m res c (hcol c)) (hshare := fun c => (data m res 0 c).share_full fun _ => rfl)
    (howed := fun _ _ => rfl) (V := V m) (hmain := hmain m Variants.none) (hA := data_A m res) (hΦ := fun _ _ => rfl)

end Cert.KernelIdeal.Staged

end
-- ==== Proof.DequantGemm.lean ====
/-
  The function both programs compute, over the extended reals, index by index.

  The weight matrix is stored as integer codes `q[k, n]` with one integer zero point `z[g, n]` and one real scale
  `s[g, n]` per group of 128 consecutive rows, `g = k / 128`.  The dequantised weight is
  `w[k, n] = (q[k, n] - z[g, n]) * s[g, n]`, the difference taken in the 32-bit integers and then read as a signed
  integer.  The result is the matrix product with the activations plus a bias along the columns:
  `out[t, n] = (sum over k of x[t, k] * w[k, n]) + b[n]`.
-/
import Idealize.ShloMosaic.PureOps.Ideal
import Idealize.ShloMosaic.Lib.ValueIdx

noncomputable section

namespace Cert.DequantGemm

open Idealize.ShloMosaic Idealize.ShloMosaic.ValueIdx

/-- The group of row `k`: 128 consecutive rows share a zero point and a scale. -/
def grp (k : Fin 4096) : Fin 32 := ⟨k.val / 128, by have := k.isLt; omega⟩

/-- The dequantised weight at row `k`, column `n`: the signed reading of the 32-bit difference of the code and its
    group's zero point, times the group's scale. -/
def weight (q : (⟨2, ![4096, 11008]⟩ : Shape).Idx → BitVec 32) (z : (⟨2, ![32, 11008]⟩ : Shape).Idx → BitVec 32)
    (s : (⟨2, ![32, 11008]⟩ : Shape).Idx → EReal) (k : Fin 4096) (n : Fin 11008) : EReal :=
  (((q (ix2 k n) - z (ix2 (grp k) n)).toInt : ℝ) : EReal) * s (ix2 (grp k) n)

/-- The result: activations times dequantised weights, plus the bias of the column. -/
def G (x : (⟨2, ![32, 4096]⟩ : Shape).Idx → EReal) (q : (⟨2, ![4096, 11008]⟩ : Shape).Idx → BitVec 32)
    (z : (⟨2, ![32, 11008]⟩ : Shape).Idx → BitVec 32) (s : (⟨2, ![32, 11008]⟩ : Shape).Idx → EReal)
    (b : (⟨1, ![11008]⟩ : Shape).Idx → EReal) : (⟨2, ![32, 11008]⟩ : Shape).Idx → EReal :=
  fun i => (∑ k : Fin 4096, x (ix2 (i 0) k) * weight q z s k (i 1)) + b (ix1 (i 1))

/-- For codes and zero points in the range of 4-bit codes, the 32-bit difference read signed is the difference of
    the recentred codes read signed: no subtraction wraps. -/
theorem recentred_sub (a c : BitVec 32) (ha0 : 0 ≤ a.toInt) (ha : a.toInt < 16) (hc0 : 0 ≤ c.toInt) (hc : c.toInt < 16) :
    (((a - 8#32).toInt : ℝ) : EReal) - (((c - 8#32).toInt : ℝ) : EReal) = (((a - c).toInt : ℝ) : EReal) := by
  have h1 : (a - 8#32).toInt = a.toInt - 8 := by
    rw [BitVec.toInt_sub]; simp only [show (8#32 : BitVec 32).toInt = 8 from by decide]
    rw [Int.bmod_eq_of_le] <;> omega
  have h2 : (c - 8#32).toInt = c.toInt - 8 := by
    rw [BitVec.toInt_sub]; simp only [show (8#32 : BitVec 32).toInt = 8 from by decide]
    rw [Int.bmod_eq_of_le] <;> omega
  have h3 : (a - c).toInt = a.toInt - c.toInt := by
    rw [BitVec.toInt_sub]
    rw [Int.bmod_eq_of_le] <;> omega
  rw [h1, h2, h3, ← EReal.coe_sub]
  congr 1
  push_cast
  ring

end Cert.DequantGemm

end
-- ==== Proof.StepAtIndex.lean ====
/-
  One grid step of the quantised matrix product, read at an index, over the extended reals.

  The step's one store holds, at row r and column c of the 32 x 512 result block,

      (sum over k < 4096 of x[r, k] * (((q[k, c] - z[k / 128, c]) read signed) * s[k / 128, c])) + b[0, c],

  where x is the 32 x 4096 block of activations, q the 4096 x 512 block of weight codes, z and s the 32 x 512 blocks
  of zero points and scales (one row per group of 128 consecutive rows of q) and b the 1 x 512 bias row.  Only
  column c of q, z, s and b enters.

  The body computes the dequantised block through layout operations: the codes are viewed as 32 groups of 128 rows,
  each group's zero-point row and scale row are repeated over the group's 128 rows, the difference is taken in the
  32-bit integers, read as a signed integer, multiplied by the scale, and the result is viewed flat again.  Row k of
  the flat view is row k % 128 of group k / 128, because k = 128 (k / 128) + k % 128.  At the extended reals a change
  of float format is the identity and the matrix unit's product onto a zero accumulator is the plain sum of products
  over the contracted axis.
-/
import proofs.«132616_j39084202394118_2_alg».proof.Proof.StepIdeal
import proofs.«132616_j39084202394118_2_alg».proof.Proof.DequantGemm
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.StepValue

open Cert.KernelIdeal Cert.KernelIdeal.Gen
open Idealize.ShloMosaic Idealize.ShloMosaic.ValueIdx
open Cert.DequantGemm (grp)

variable {α : Type}

/-- The 4096 rows viewed as 32 groups of 128: group g, row t of the group, column c is row k = 128 g + t. -/
theorem reshape_groups_apply (x : S4096x512.Idx → α) (h : S4096x512.ShapeCasts S32x128x512)
    (k : Fin 4096) (g : Fin 32) (t : Fin 128) (c : Fin 512) (hk : k.val = g.val * 128 + t.val) :
    shapeCast S32x128x512 x h (ix3 g t c) = x (ix2 k c) := by
  refine shapeCast_apply x h _ _ ?_
  rw [Shape.rowMajor_val_two, Shape.rowMajor_val_three]
  show k.val * 512 + c.val = (g.val * 128 + t.val) * 512 + c.val
  rw [hk]

/-- The grouped array viewed flat again: row k, column c is group k / 128, row k % 128 of the group. -/
theorem reshape_flat_apply (y : S32x128x512.Idx → α) (h : S32x128x512.ShapeCasts S4096x512)
    (k : Fin 4096) (c : Fin 512) :
    shapeCast S4096x512 y h (ix2 k c) = y (ix3 (grp k) (⟨k.val % 128, Nat.mod_lt _ (by norm_num)⟩ : Fin 128) c) := by
  refine shapeCast_apply y h _ _ ?_
  rw [Shape.rowMajor_val_two, Shape.rowMajor_val_three]
  show ((k.val / 128) * 128 + k.val % 128) * 512 + c.val = k.val * 512 + c.val
  have := Nat.div_add_mod k.val 128
  omega

/-- A per-group row, given a unit middle axis and repeated over the 128 rows of its group. -/
theorem group_broadcast_apply (x : S32x512.Idx → α) (h1 : S32x512.ShapeCasts S32x1x512) (h2 : S32x1x512.Broadcasts S32x128x512)
    (g : Fin 32) (t : Fin 128) (c : Fin 512) :
    broadcastTo S32x128x512 (shapeCast S32x1x512 x h1) h2 (ix3 g t c) = x (ix2 g c) := by
  refine (broadcastTo_apply _ h2 (ix3 g t c) (ix3 g (0 : Fin 1) c) ?_).trans ?_
  · intro a
    match a with
    | ⟨0, _⟩ => rfl
    | ⟨1, _⟩ => rfl
    | ⟨2, _⟩ => rfl
  · refine shapeCast_apply x h1 _ _ ?_
    rw [Shape.rowMajor_val_two, Shape.rowMajor_val_three]
    show g.val * 512 + c.val = (g.val * 1 + 0) * 512 + c.val
    omega

/-- The bias row repeated over the 32 rows. -/
theorem bias_row_apply (x4 : S1x512.Idx → α) (h1 : S1x512.ShapeCasts S1x512) (h2 : S1x512.Broadcasts S32x512)
    (r : Fin 32) (c : Fin 512) :
    broadcastTo S32x512 (shapeCast S1x512 x4 h1) h2 (ix2 r c) = x4 (ix2 (0 : Fin 1) c) := by
  rw [shapeCast_self]
  exact broadcastTo_apply x4 h2 (ix2 r c) (ix2 (0 : Fin 1) c) (fun a => match a with | ⟨0, _⟩ => rfl | ⟨1, _⟩ => rfl)

/-- An integer subtraction of vectors, read at an index, is the 32-bit difference of the two words there. -/
theorem subi_apply {s : Shape} {w : Nat} (x y : IVec s w) (i : s.Idx) : subi x y i = x i - y i := rfl

/-- At the extended reals the conversion from a signed integer word is the integer it denotes. -/
theorem sitofp_ideal {φ : FTy} {w : Nat} (b : BitVec w) :
    (FloatOps.sitofp (F := Ideal) φ b) = ((b.toInt : ℝ) : EReal) := rfl

/-- The dequantised weight at row k, column c: the code minus its group's zero point, read signed, times its
    group's scale; the change of format before the product is the identity at the extended reals. -/
theorem weight_apply (x1 : Vec Ideal S4096x512 .i32) (x2 : Vec Ideal S32x512 .i32) (x3 : Vec Ideal S32x512 .f32)
    (k : Fin 4096) (c : Fin 512) :
    shapeCast S4096x512
        (truncf (F := Ideal) .bf16
          (mulf (F := Ideal)
            (sitofp (F := Ideal) .f32
              (subi (shapeCast S32x128x512 x1 shapeCasts_S4096x512_S32x128x512)
                (broadcastTo S32x128x512 (shapeCast S32x1x512 x2 shapeCasts_S32x512_S32x1x512)
                  broadcasts_S32x1x512_S32x128x512)))
            (broadcastTo S32x128x512 (shapeCast S32x1x512 x3 shapeCasts_S32x512_S32x1x512)
              broadcasts_S32x1x512_S32x128x512))
          bitsLt_bf16_f32)
        shapeCasts_S32x128x512_S4096x512 (ix2 k c)
      = (((x1 (ix2 k c) - x2 (ix2 (grp k) c)).toInt : ℝ) : EReal) * x3 (ix2 (grp k) c) := by
  have hk : k.val = (grp k).val * 128 + k.val % 128 := by
    show k.val = k.val / 128 * 128 + k.val % 128
    have := Nat.div_add_mod k.val 128
    omega
  rw [reshape_flat_apply, truncf_apply, mulf_apply, sitofp_apply, group_broadcast_apply, subi_apply,
    reshape_groups_apply x1 _ k (grp k) _ c hk, group_broadcast_apply, sitofp_ideal]

/-- The left operand's row coordinate at output index j and any contraction position is j's row. -/
theorem lhs_row (j : S32x512.Idx) (q : dot_S32x4096_S4096x512_S32x512_1_0_0_1_n_n.contr.Idx) :
    (dot_S32x4096_S4096x512_S32x512_1_0_0_1_n_n.lhsIdx j q 0).val = (j 0).val := by
  unfold DotDims.lhsIdx
  rw [dif_neg (show ¬(0 : Fin S32x4096.rank) ∈ dot_S32x4096_S4096x512_S32x512_1_0_0_1_n_n.lhsBatch by decide),
    dif_pos (show (0 : Fin S32x4096.rank) ∈ dot_S32x4096_S4096x512_S32x512_1_0_0_1_n_n.lhsNonContracting by decide)]
  rfl

/-- The left operand's column coordinate is the contraction position. -/
theorem lhs_col (j : S32x512.Idx) (q : dot_S32x4096_S4096x512_S32x512_1_0_0_1_n_n.contr.Idx) :
    (dot_S32x4096_S4096x512_S32x512_1_0_0_1_n_n.lhsIdx j q 1).val = (q ⟨0, by decide⟩).val :=
  dot_S32x4096_S4096x512_S32x512_1_0_0_1_n_n.lhsIdx_val_of_single rfl j q

/-- The right operand's row coordinate is the contraction position. -/
theorem rhs_row (j : S32x512.Idx) (q : dot_S32x4096_S4096x512_S32x512_1_0_0_1_n_n.contr.Idx) :
    (dot_S32x4096_S4096x512_S32x512_1_0_0_1_n_n.rhsIdx j q 0).val = (q ⟨0, by decide⟩).val :=
  dot_S32x4096_S4096x512_S32x512_1_0_0_1_n_n.rhsIdx_val_of_single rfl j q

/-- The right operand's column coordinate at output index j is j's column. -/
theorem rhs_col (j : S32x512.Idx) (q : dot_S32x4096_S4096x512_S32x512_1_0_0_1_n_n.contr.Idx) :
    (dot_S32x4096_S4096x512_S32x512_1_0_0_1_n_n.rhsIdx j q 1).val = (j 1).val := by
  unfold DotDims.rhsIdx
  rw [dif_neg (show ¬(1 : Fin S4096x512.rank) ∈ dot_S32x4096_S4096x512_S32x512_1_0_0_1_n_n.rhsBatch by decide),
    dif_pos (show (1 : Fin S4096x512.rank) ∈ dot_S32x4096_S4096x512_S32x512_1_0_0_1_n_n.rhsNonContracting by decide)]
  rfl

/-- The matrix unit's product onto a zero accumulator, read at row r, column c: the sum over the 4096 contracted
    positions k of the left operand at (r, k) times the right operand at (k, c). -/
theorem matmul_zero_apply (a : FVec Ideal S32x4096 .bf16) (w : FVec Ideal S4096x512 .bf16) (r : Fin 32) (c : Fin 512) :
    matmul dot_S32x4096_S4096x512_S32x512_1_0_0_1_n_n none a w (constant (F := Ideal) S32x512 .f32 0x00000000#32) (ix2 r c)
      = ∑ k : Fin 4096, a (ix2 r k) * w (ix2 k c) := by
  simp only [matmul]
  rw [Ideal.matmul_constant_zero_apply,
    ← Equiv.sum_comp (ValueIdx.contrEquiv1 dot_S32x4096_S4096x512_S32x512_1_0_0_1_n_n 4096 rfl rfl).symm]
  refine Finset.sum_congr rfl fun k _ => ?_
  have hk := ValueIdx.contrEquiv1_symm_val dot_S32x4096_S4096x512_S32x512_1_0_0_1_n_n 4096 rfl rfl k
  have el : dot_S32x4096_S4096x512_S32x512_1_0_0_1_n_n.lhsIdx (ix2 r c)
      ((ValueIdx.contrEquiv1 dot_S32x4096_S4096x512_S32x512_1_0_0_1_n_n 4096 rfl rfl).symm k) = ix2 r k :=
    funext fun i => Fin.ext (by
      match i with
      | ⟨0, _⟩ => exact lhs_row _ _
      | ⟨1, _⟩ => exact (lhs_col _ _).trans hk)
  have er : dot_S32x4096_S4096x512_S32x512_1_0_0_1_n_n.rhsIdx (ix2 r c)
      ((ValueIdx.contrEquiv1 dot_S32x4096_S4096x512_S32x512_1_0_0_1_n_n 4096 rfl rfl).symm k) = ix2 k c :=
    funext fun i => Fin.ext (by
      match i with
      | ⟨0, _⟩ => exact (rhs_row _ _).trans hk
      | ⟨1, _⟩ => exact rhs_col _ _)
  rw [el, er]

/-- One grid step's result at row r, column c: the activations' row r against column c of the dequantised block,
    plus the bias of the column. Only column c of the codes, zero points, scales and bias is read. -/
theorem stepResult_apply (x0 : Vec Ideal S32x4096 .f32) (x1 : Vec Ideal S4096x512 .i32) (x2 : Vec Ideal S32x512 .i32)
    (x3 : Vec Ideal S32x512 .f32) (x4 : Vec Ideal S1x512 .f32) (r : Fin 32) (c : Fin 512) :
    Cert.KernelIdeal.Step.stepResult (F := Ideal) x0 x1 x2 x3 x4 (ix2 r c)
      = (∑ k : Fin 4096, x0 (ix2 r k) * ((((x1 (ix2 k c) - x2 (ix2 (grp k) c)).toInt : ℝ) : EReal) * x3 (ix2 (grp k) c)))
        + x4 (ix2 (0 : Fin 1) c) := by
  have hz : (![0, 0] : Fin 2 → Nat) = fun _ => 0 := by funext a; match a with | ⟨0, _⟩ => rfl | ⟨1, _⟩ => rfl
  unfold Cert.KernelIdeal.Step.stepResult
  rw [View.canon_unit_zero hz]
  simp only [View.ld_unit_zero (S := S32x4096) hz, View.ld_unit_zero (S := S4096x512) hz, View.ld_unit_zero (S := S32x512) hz, View.ld_unit_zero (S := S1x512) hz]
  unfold k0_pay1
  rw [addf_apply, bias_row_apply, matmul_zero_apply]
  refine congrArg (· + x4 (ix2 (0 : Fin 1) c)) (Finset.sum_congr rfl fun k _ => ?_)
  rw [truncf_apply, weight_apply]

end Cert.KernelIdeal.StepValue

end
-- ==== Proof.Columns.lean ====
/-
  The step's result on the columns inside the array.

  At grid point `t` the step is handed staging buffers whose columns `cc` with `512 t + cc < 11008` hold the arrays'
  column `512 t + cc`, and whose other columns (there are some only at the last point) hold words nothing names.
  Column `cc` of the step's result is a function of column `cc` of the codes, the zero points, the scales and the
  bias, and of the activations: the contraction runs over the ROWS of the weight block, never across columns.  So on
  the columns inside the array the result is the specification's block, whatever the unnamed words are.
-/
import proofs.«132616_j39084202394118_2_alg».proof.Proof.StagedIdeal
import proofs.«132616_j39084202394118_2_alg».proof.Proof.StepAtIndex
import proofs.«132616_j39084202394118_2_alg».proof.Proof.DequantGemm
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Columns

open Cert.KernelIdeal Cert.KernelIdeal.Gen Cert.KernelIdeal.Step Cert.KernelIdeal.Staged
open Idealize.ShloMosaic Idealize.ShloMosaic.TcCoe Idealize.ShloMosaic.ValueIdx
open Idealize.SL Idealize.SL.Sem
open Idealize.ShloMosaic.Pipeline (Dat Cfg Window)
open Idealize.ShloMosaic.StableHlo

/-- Where block `t` sits and how much of it is inside the arrays: every column-blocked window has block row 0 and
    block column `t`, all its rows inside, and the same number of columns inside as the result's; those columns end
    within the 11008. -/
theorem block_place : ∀ t : Fin cfg0.N,
    (win0_1.index t 0 = 0 ∧ win0_1.index t 1 = t.val ∧ win0_1.xsize (grid0.coords t) 0 = 4096)
    ∧ (win0_2.index t 0 = 0 ∧ win0_2.index t 1 = t.val ∧ win0_2.xsize (grid0.coords t) 0 = 32)
    ∧ (win0_3.index t 0 = 0 ∧ win0_3.index t 1 = t.val ∧ win0_3.xsize (grid0.coords t) 0 = 32)
    ∧ (win0_4.index t 0 = 0 ∧ win0_4.index t 1 = t.val ∧ win0_4.xsize (grid0.coords t) 0 = 1)
    ∧ (win0_5.index t 0 = 0 ∧ win0_5.index t 1 = t.val ∧ win0_5.xsize (grid0.coords t) 0 = 32)
    ∧ win0_1.xsize (grid0.coords t) 1 = win0_5.xsize (grid0.coords t) 1
    ∧ win0_2.xsize (grid0.coords t) 1 = win0_5.xsize (grid0.coords t) 1
    ∧ win0_3.xsize (grid0.coords t) 1 = win0_5.xsize (grid0.coords t) 1
    ∧ win0_4.xsize (grid0.coords t) 1 = win0_5.xsize (grid0.coords t) 1
    ∧ t.val * 512 + win0_5.xsize (grid0.coords t) 1 ≤ 11008 :=
  (by decide +kernel : ∀ t : Fin grid0.N, _)

variable (m : (ℓ : Loc nD τ sig) → Buf (Elt Ideal) ℓ)

/-! ## Reading the staging buffers on the columns inside the array -/

/-- The activations' block is the whole array. -/
theorem act_place : ∀ t : Fin cfg0.N, win0_0.index t 0 = 0 ∧ win0_0.index t 1 = 0 :=
  (by decide +kernel : ∀ t : Fin grid0.N, _)

theorem act_read (c : Dev nD) (t : Fin cfg0.N) (r : Fin 32) (k : Fin 4096) :
    iblk m c 0 t (ix2 r k) = m ((c : Thread nD τ).loc main_arg0) (ix2 r k) := by
  have hp := act_place t
  refine Eq.trans ?_ (congrFun (V_main_arg0 m c) _)
  unfold iblk
  show V m c main_arg0 (((cfg0.win 0).blk t).view.emb _) = V m c main_arg0 (ix2 r k)
  refine congrArg (V m c main_arg0) (funext fun a => Fin.ext ?_)
  match a with
  | ⟨0, _⟩ =>
    show win0_0.index t 0 * 32 + 1 * r.val = r.val
    rw [hp.1]; omega
  | ⟨1, _⟩ =>
    show win0_0.index t 1 * 4096 + 1 * k.val = k.val
    rw [hp.2]; omega

/-- Column `cc` of the codes' buffer, when it is among the columns inside the array, is column `512 t + cc` of the
    code array, whatever the buffer holds on its other columns. -/
theorem codes_read (c : Dev nD) (t : Fin cfg0.N) (d : S4096x512.Idx → Elt Ideal .i32) (k : Fin 4096) (cc : Fin 512)
    (hcc : cc.val < win0_5.xsize (grid0.coords t) 1) (n : Fin 11008) (hn : n.val = t.val * 512 + cc.val) :
    win0_1.fill (grid0.coords t) d (iblk m c 1 t) (ix2 k cc) = m ((c : Thread nD τ).loc main_arg1) (ix2 k n) := by
  have hp := block_place t
  have hm : win0_1.moved (grid0.coords t) (ix2 k cc) = true := (win0_1.moved_iff _ _).mpr fun a => by
    match a with
    | ⟨0, _⟩ => exact lt_of_lt_of_eq k.isLt hp.1.2.2.symm
    | ⟨1, _⟩ => exact lt_of_lt_of_eq hcc hp.2.2.2.2.2.1.symm
  refine Eq.trans ?_ (congrFun (V_main_arg1 m c) _)
  unfold Window.fill; rw [dif_pos hm]
  unfold iblk
  show V m c main_arg1 (((cfg0.win 1).blk t).view.emb _) = V m c main_arg1 (ix2 k n)
  refine congrArg (V m c main_arg1) (funext fun a => Fin.ext ?_)
  match a with
  | ⟨0, _⟩ =>
    show win0_1.index t 0 * 4096 + 1 * k.val = k.val
    rw [hp.1.1]; omega
  | ⟨1, _⟩ =>
    show win0_1.index t 1 * 512 + 1 * cc.val = n.val
    rw [hp.1.2.1, hn]; omega

/-- The same for the zero points' buffer; -/
theorem zeros_read (c : Dev nD) (t : Fin cfg0.N) (d : S32x512.Idx → Elt Ideal .i32) (g : Fin 32) (cc : Fin 512)
    (hcc : cc.val < win0_5.xsize (grid0.coords t) 1) (n : Fin 11008) (hn : n.val = t.val * 512 + cc.val) :
    win0_2.fill (grid0.coords t) d (iblk m c 2 t) (ix2 g cc) = m ((c : Thread nD τ).loc main_arg2) (ix2 g n) := by
  have hp := block_place t
  have hm : win0_2.moved (grid0.coords t) (ix2 g cc) = true := (win0_2.moved_iff _ _).mpr fun a => by
    match a with
    | ⟨0, _⟩ => exact lt_of_lt_of_eq g.isLt hp.2.1.2.2.symm
    | ⟨1, _⟩ => exact lt_of_lt_of_eq hcc hp.2.2.2.2.2.2.1.symm
  refine Eq.trans ?_ (congrFun (V_main_arg2 m c) _)
  unfold Window.fill; rw [dif_pos hm]
  unfold iblk
  show V m c main_arg2 (((cfg0.win 2).blk t).view.emb _) = V m c main_arg2 (ix2 g n)
  refine congrArg (V m c main_arg2) (funext fun a => Fin.ext ?_)
  match a with
  | ⟨0, _⟩ =>
    show win0_2.index t 0 * 32 + 1 * g.val = g.val
    rw [hp.2.1.1]; omega
  | ⟨1, _⟩ =>
    show win0_2.index t 1 * 512 + 1 * cc.val = n.val
    rw [hp.2.1.2.1, hn]; omega

/-- for the scales' buffer; -/
theorem scales_read (c : Dev nD) (t : Fin cfg0.N) (d : S32x512.Idx → Elt Ideal .f32) (g : Fin 32) (cc : Fin 512)
    (hcc : cc.val < win0_5.xsize (grid0.coords t) 1) (n : Fin 11008) (hn : n.val = t.val * 512 + cc.val) :
    win0_3.fill (grid0.coords t) d (iblk m c 3 t) (ix2 g cc) = m ((c : Thread nD τ).loc main_arg3) (ix2 g n) := by
  have hp := block_place t
  have hm : win0_3.moved (grid0.coords t) (ix2 g cc) = true := (win0_3.moved_iff _ _).mpr fun a => by
    match a with
    | ⟨0, _⟩ => exact lt_of_lt_of_eq g.isLt hp.2.2.1.2.2.symm
    | ⟨1, _⟩ => exact lt_of_lt_of_eq hcc hp.2.2.2.2.2.2.2.1.symm
  refine Eq.trans ?_ (congrFun (V_main_arg3 m c) _)
  unfold Window.fill; rw [dif_pos hm]
  unfold iblk
  show V m c main_arg3 (((cfg0.win 3).blk t).view.emb _) = V m c main_arg3 (ix2 g n)
  refine congrArg (V m c main_arg3) (funext fun a => Fin.ext ?_)
  match a with
  | ⟨0, _⟩ =>
    show win0_3.index t 0 * 32 + 1 * g.val = g.val
    rw [hp.2.2.1.1]; omega
  | ⟨1, _⟩ =>
    show win0_3.index t 1 * 512 + 1 * cc.val = n.val
    rw [hp.2.2.1.2.1, hn]; omega

/-- The staged bias array is the bias vector laid out as one row. -/
theorem staged_bias (c : Dev nD) :
    (V m c main_call0_v0 : S1x11008.Idx → Elt Ideal .f32)
      = shapeCast S1x11008 (m ((c : Thread nD τ).loc main_arg4)) shapeCasts_S11008_S1x11008 := by
  dsimp only [V, hostOps0]; after_results; rfl

/-- and for the bias row's buffer: column `cc` inside the array is entry `512 t + cc` of the bias vector. -/
theorem bias_read (c : Dev nD) (t : Fin cfg0.N) (d : S1x512.Idx → Elt Ideal .f32) (cc : Fin 512)
    (hcc : cc.val < win0_5.xsize (grid0.coords t) 1) (n : Fin 11008) (hn : n.val = t.val * 512 + cc.val) :
    win0_4.fill (grid0.coords t) d (iblk m c 4 t) (ix2 0 cc) = m ((c : Thread nD τ).loc main_arg4) (ix1 n) := by
  have hp := block_place t
  have hm : win0_4.moved (grid0.coords t) (ix2 0 cc) = true := (win0_4.moved_iff _ _).mpr fun a => by
    match a with
    | ⟨0, _⟩ => exact lt_of_lt_of_eq (by decide : (0 : Fin 1).val < 1) hp.2.2.2.1.2.2.symm
    | ⟨1, _⟩ => exact lt_of_lt_of_eq hcc hp.2.2.2.2.2.2.2.2.1.symm
  unfold Window.fill; rw [dif_pos hm]
  unfold iblk
  show V m c main_call0_v0 (((cfg0.win 4).blk t).view.emb _) = _
  rw [staged_bias m c]
  have e : (((cfg0.win 4).blk t).view.emb fun a => ⟨(ix2 (0 : Fin 1) cc a).val, (win0_4.moved_iff (grid0.coords t) (ix2 0 cc)).mp hm a⟩)
      = (ix2 (0 : Fin 1) n : S1x11008.Idx) := funext fun a => Fin.ext (by
    match a with
    | ⟨0, _⟩ =>
      show win0_4.index t 0 * 1 + 1 * 0 = 0
      rw [hp.2.2.2.1.1]
    | ⟨1, _⟩ =>
      show win0_4.index t 1 * 512 + 1 * cc.val = n.val
      rw [hp.2.2.2.1.2.1, hn]; omega)
  rw [e]
  exact shapeCast_a_1a_apply _ _ _ _

/-! ## The step's columns inside the array are the specification's -/

/-- The specification at the argument arrays of device `c`: the whole result array. -/
def spec (c : Dev nD) : Buf (Elt Ideal) ((c : Thread nD τ).loc main_v0) :=
  Cert.DequantGemm.G (m ((c : Thread nD τ).loc main_arg0)) (m ((c : Thread nD τ).loc main_arg1)) (m ((c : Thread nD τ).loc main_arg2))
    (m ((c : Thread nD τ).loc main_arg3)) (m ((c : Thread nD τ).loc main_arg4))

/-- What the result's staging buffer holds after the step at point `t`, on the columns inside the array: the
    specification's block there (zeros stand in for the other columns, which are never written back). -/
def specBlock (c : Dev nD) (t : Fin cfg0.N) : S32x512.Idx → Elt Ideal .f32 :=
  win0_5.fill (grid0.coords t) (fun _ => (0 : EReal)) ((win0_5.blk t).view.read (Elt Ideal) (spec m c))

/-- The specification at row r, column n. -/
theorem G_at (x : S32x4096.Idx → EReal) (q : S4096x11008.Idx → BitVec 32) (z : S32x11008.Idx → BitVec 32)
    (s : S32x11008.Idx → EReal) (b : S11008.Idx → EReal) (r : Fin 32) (n : Fin 11008) :
    Cert.DequantGemm.G x q z s b (ix2 r n) = (∑ k : Fin 4096, x (ix2 r k) * Cert.DequantGemm.weight q z s k n) + b (ix1 n) := rfl

/-- Column `cc` of the step's result depends only on column `cc` of the codes, zero points, scales and bias it was
    handed, and for a column inside the array those are the arrays' column `512 t + cc`: so the result's columns
    inside the array are the specification's, whatever the input buffers hold past the array's end. -/
theorem columns_are_spec  (c : Dev nD) : ColumnsAre m (specBlock m) c := by
  intro t d1 d2 d3 d4
  have hp := block_place t
  unfold specBlock
  rw [win0_5.cut_fill]
  funext j
  have hr : (j 0).val < 32 := lt_of_lt_of_eq (j 0).isLt hp.2.2.2.2.1.2.2
  have hcc : (j 1).val < win0_5.xsize (grid0.coords t) 1 := (j 1).isLt
  have hc512 : (j 1).val < 512 := lt_of_lt_of_le hcc (win0_5.xsize_le (grid0.coords t) 1)
  have hn : t.val * 512 + (j 1).val < 11008 := by have := hp.2.2.2.2.2.2.2.2.2; omega
  obtain ⟨r, hr'⟩ : ∃ r : Fin 32, r.val = (j 0).val := ⟨⟨_, hr⟩, rfl⟩
  obtain ⟨cc, hcc'⟩ : ∃ cc : Fin 512, cc.val = (j 1).val := ⟨⟨_, hc512⟩, rfl⟩
  obtain ⟨n, hn'⟩ : ∃ n : Fin 11008, n.val = t.val * 512 + cc.val := ⟨⟨_, hn⟩, by rw [hcc']⟩
  have hccx : cc.val < win0_5.xsize (grid0.coords t) 1 := by rw [hcc']; exact hcc
  have e1 : win0_5.xinj (grid0.coords t) j = (ix2 r cc : S32x512.Idx) := funext fun a => Fin.ext (by
    match a with
    | ⟨0, _⟩ => exact hr'.symm
    | ⟨1, _⟩ => exact hcc'.symm)
  have e2 : ((win0_5.blk t).view.emb j : S32x11008.Idx) = ix2 r n := funext fun a => Fin.ext (by
    match a with
    | ⟨0, _⟩ =>
      show win0_5.index t 0 * 32 + 1 * (j 0).val = r.val
      rw [hp.2.2.2.2.1.1, hr']; omega
    | ⟨1, _⟩ =>
      show win0_5.index t 1 * 512 + 1 * (j 1).val = n.val
      rw [hp.2.2.2.2.1.2.1, hn', hcc']; omega)
  show stepResult (F := Ideal) (iblk m c 0 t) (win0_1.fill (grid0.coords t) d1 (iblk m c 1 t)) (win0_2.fill (grid0.coords t) d2 (iblk m c 2 t))
      (win0_3.fill (grid0.coords t) d3 (iblk m c 3 t)) (win0_4.fill (grid0.coords t) d4 (iblk m c 4 t)) (win0_5.xinj (grid0.coords t) j)
    = spec m c ((win0_5.blk t).view.emb j)
  rw [e1, e2, Cert.KernelIdeal.StepValue.stepResult_apply]
  unfold spec
  rw [G_at]
  rw [bias_read m c t d4 cc hccx n hn']
  congr 1
  refine Finset.sum_congr rfl fun k _ => ?_
  rw [act_read m c t r k, codes_read m c t d1 k cc hccx n hn', zeros_read m c t d2 (Cert.DequantGemm.grp k) cc hccx n hn',
    scales_read m c t d3 (Cert.DequantGemm.grp k) cc hccx n hn']
  rfl

end Cert.KernelIdeal.Columns

end
-- ==== Proof.Result.lean ====
/-
  From blocks to the whole result array.

  Point `t` writes back the part of its 32 x 512 result block that lies inside the array: columns
  `512 t … 512 t + 511` for `t < 21`, columns `10752 … 11007` for `t = 21`.  Each written part is the
  specification's block there, and column `n` lies in the block of point `n / 512`: the parts tile the array, so
  after the last point the array IS the specification, and the argument arrays are as they were.
-/
import proofs.«132616_j39084202394118_2_alg».proof.Proof.Columns

set_option maxRecDepth 16384

noncomputable section

namespace Cert.KernelIdeal.Result

open Cert.KernelIdeal Cert.KernelIdeal.Gen Cert.KernelIdeal.Step Cert.KernelIdeal.Staged Cert.KernelIdeal.Columns
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- What point `t` writes back is the specification read through block `t`. -/
theorem written_back (c : Dev nD) (t : Fin cfg0.N) :
    (data m (specBlock m) 0 c).flushed 5 t = ((cfg0.win 5).blk t).view.read (Elt Ideal) (spec m c) := by
  show win0_5.cut (grid0.coords t) ((data m (specBlock m) 0 c).after 5 t) = _
  rw [after_res]
  unfold specBlock
  rw [win0_5.cut_fill]

/-- The columns of block `t` inside the array end at `512 t + 512` or at the array's end, whichever is first. -/
theorem block_width : ∀ t : Fin cfg0.N, t.val * 512 + win0_5.xsize (grid0.coords t) 1 = min (t.val * 512 + 512) 11008 :=
  (by decide +kernel : ∀ t : Fin grid0.N, _)

/-- An index of the array is in point `t`'s block iff each coordinate is in the range the block's part inside the
    array spans on its axis. -/
theorem mem_block (t : Fin cfg0.N) (i : S32x11008.Idx) :
    i ∈ ((cfg0.win 5).blk t).view.set ↔ ∀ a : Fin 2, win0_5.index t a * S32x512.size a ≤ (i a).val
      ∧ (i a).val < win0_5.index t a * S32x512.size a + win0_5.xsize (grid0.coords t) a := by
  show i ∈ ((View.whole main_v0).slice (win0_5.rect t)).set ↔ _
  rw [View.set_slice_whole, Rect.mem_set_unit]
  exact Iff.rfl

/-- Every index of the array is in the block of the point its column names, and that point writes back. -/
theorem covered (i : S32x11008.Idx) :
    ∃ t : Fin cfg0.N, (cfg0.win 5).flush t = true ∧ i ∈ ((cfg0.win 5).blk t).view.set := by
  have hi0 : (i 0).val < 32 := (i 0).isLt
  have hi1 : (i 1).val < 11008 := (i 1).isLt
  have ht : (i 1).val / 512 < grid0.N := by rw [N_0]; omega
  refine ⟨⟨(i 1).val / 512, ht⟩, flush0_5 _, ?_⟩
  rw [mem_block]
  have hp := block_place ⟨(i 1).val / 512, ht⟩
  have hw := block_width ⟨(i 1).val / 512, ht⟩
  have hrow : win0_5.index ⟨(i 1).val / 512, ht⟩ 0 = 0 := hp.2.2.2.2.1.1
  have hrows : win0_5.xsize (grid0.coords ⟨(i 1).val / 512, ht⟩) 0 = 32 := hp.2.2.2.2.1.2.2
  have hcol : win0_5.index ⟨(i 1).val / 512, ht⟩ 1 = (i 1).val / 512 := hp.2.2.2.2.1.2.1
  have hcols : (i 1).val / 512 * 512 + win0_5.xsize (grid0.coords ⟨(i 1).val / 512, ht⟩) 1
      = min ((i 1).val / 512 * 512 + 512) 11008 := hw
  clear hp hw
  intro a
  match a with
  | ⟨0, _⟩ =>
    show win0_5.index ⟨(i 1).val / 512, ht⟩ 0 * 32 ≤ (i 0).val
      ∧ (i 0).val < win0_5.index ⟨(i 1).val / 512, ht⟩ 0 * 32 + win0_5.xsize (grid0.coords ⟨(i 1).val / 512, ht⟩) 0
    rw [hrow, hrows]; omega
  | ⟨1, _⟩ =>
    show win0_5.index ⟨(i 1).val / 512, ht⟩ 1 * 512 ≤ (i 1).val
      ∧ (i 1).val < win0_5.index ⟨(i 1).val / 512, ht⟩ 1 * 512 + win0_5.xsize (grid0.coords ⟨(i 1).val / 512, ht⟩) 1
    rw [hcol]
    omega

/-- After the last point the result array is the specification. -/
theorem final (c : Dev nD) : (data m (specBlock m) 0 c).arrAt 5 cfg0.N = spec m c :=
  (data m (specBlock m) 0 c).arrAt_eq_of_cover 5 (spec m c) (fun t _ => written_back m c t) covered

/-- Every weakly fair execution of the idealized kernel terminates, nothing faulting; the result array ends at the
    specification of the argument arrays, and those end as they began. -/
theorem run : θ_run defs (onTc (τ := τ) (main (F := Ideal))) ⟨m, fun _ => 0, ρ⟩ fun r => ∀ c : Dev nD,
      r.2.mem ((c.tc : Thread nD τ).loc main_v0) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).1 5).trans (final m c),
      ((h c).1 0).trans (((data m (specBlock m) 0 c).arrAt_in 0 rfl _).trans ((data_A m (specBlock m) c 0).trans (V_main_arg0 m c))),
      ((h c).1 1).trans (((data m (specBlock m) 0 c).arrAt_in 1 rfl _).trans ((data_A m (specBlock m) c 1).trans (V_main_arg1 m c))),
      ((h c).1 2).trans (((data m (specBlock m) 0 c).arrAt_in 2 rfl _).trans ((data_A m (specBlock m) c 2).trans (V_main_arg2 m c))),
      ((h c).1 3).trans (((data m (specBlock m) 0 c).arrAt_in 3 rfl _).trans ((data_A m (specBlock m) c 3).trans (V_main_arg3 m c))),
      ((h c).2 main_arg4 (Pipeline.mem_restRefs_of main_arg4 (by decide) (by decide))).trans (V_main_arg4 m c)⟩)
    (run_all m ρ (specBlock m) (columns_are_spec m))

end Cert.KernelIdeal.Result

end
-- ==== Proof.ReferenceIsG.lean ====
/-
  The reference program computes the dequantised matrix product of the specification.

  The reference recentres every code and every zero point by 8 before converting to a real number, subtracts the two
  real numbers, multiplies by the scale and contracts with the activations.  For codes and zero points in the range of
  4-bit codes the recentring cancels in the difference, which is then the signed reading of the 32-bit difference of the
  raw words.  The zero points and scales are spread along groups of 128 rows by a broadcast to [32, 128, 11008] followed
  by a reshape to [4096, 11008]; in row-major order row `k` of the result is row `k / 128` of the operand.
-/
import proofs.«132616_j39084202394118_2_alg».proof.Proof.Gen.ReferenceIdeal.Read
import proofs.«132616_j39084202394118_2_alg».proof.Proof.DequantGemm

noncomputable section

namespace Cert.RefBridge

open Cert.ReferenceIdeal Cert.ReferenceIdeal.Read Idealize.ShloMosaic Idealize.ShloMosaic.ValueIdx Cert.DequantGemm

/-- Reading the zero points through the reshape and the broadcast: row `k`, column `n` of the spread array is row
    `k / 128`, column `n` of the operand. -/
theorem spread_zero_idx (k : Fin 4096) (n : Fin 11008) :
    idx_main_v6 (idx_main_v7 (ix2 k n)) = ix2 (grp k) n :=
  funext fun a => Fin.ext (by
    have hk := k.isLt
    have hn := n.isLt
    match a with
    | ⟨0, _⟩ => show (k.val * 11008 + n.val) / 1409024 = k.val / 128; omega
    | ⟨1, _⟩ => show (k.val * 11008 + n.val) % 11008 = n.val; omega)

/-- The same for the scales. -/
theorem spread_scale_idx (k : Fin 4096) (n : Fin 11008) :
    idx_main_v8 (idx_main_v9 (ix2 k n)) = ix2 (grp k) n :=
  funext fun a => Fin.ext (by
    have hk := k.isLt
    have hn := n.isLt
    match a with
    | ⟨0, _⟩ => show (k.val * 11008 + n.val) / 1409024 = k.val / 128; omega
    | ⟨1, _⟩ => show (k.val * 11008 + n.val) % 11008 = n.val; omega)

/-- The reference's weight matrix is the specification's dequantised weight, when no recentred subtraction wraps. -/
theorem ref_weight (x1 : (⟨S4096x11008, .i32⟩ : BufTy).Contents (Elt Ideal))
    (x2 : (⟨S32x11008, .i32⟩ : BufTy).Contents (Elt Ideal)) (x3 : (⟨S32x11008, .f32⟩ : BufTy).Contents (Elt Ideal))
    (hq : ∀ j, 0 ≤ (x1 j).toInt ∧ (x1 j).toInt < 16) (hz : ∀ j, 0 ≤ (x2 j).toInt ∧ (x2 j).toInt < 16)
    (k : Fin 4096) (n : Fin 11008) :
    val_main_v11 (F := Ideal) x1 x2 x3 (ix2 k n) = weight x1 x2 x3 k n := by
  rw [val_main_v11_apply, val_main_v10_apply, val_main_v9_apply, val_main_v8_apply, val_main_v7_apply,
    val_main_v6_apply, val_main_v5_apply, val_main_v4_apply, val_main_v3_apply, val_main_c_0_apply,
    val_main_v2_apply, val_main_v1_apply, val_main_v0_apply, val_main_c_apply,
    spread_zero_idx, spread_scale_idx]
  show ((((x1 (ix2 k n) - 8#32).toInt : ℝ) : EReal) - (((x2 (ix2 (grp k) n) - 8#32).toInt : ℝ) : EReal))
      * x3 (ix2 (grp k) n) = _
  rw [recentred_sub _ _ (hq _).1 (hq _).2 (hz _).1 (hz _).2]
  rfl

/-- The reference program's result is the specification's function of the five arguments. -/
theorem ref_is_G (x0 : (⟨S32x4096, .f32⟩ : BufTy).Contents (Elt Ideal))
    (x1 : (⟨S4096x11008, .i32⟩ : BufTy).Contents (Elt Ideal))
    (x2 : (⟨S32x11008, .i32⟩ : BufTy).Contents (Elt Ideal)) (x3 : (⟨S32x11008, .f32⟩ : BufTy).Contents (Elt Ideal))
    (x4 : (⟨S11008, .f32⟩ : BufTy).Contents (Elt Ideal))
    (hq : ∀ j, 0 ≤ (x1 j).toInt ∧ (x1 j).toInt < 16) (hz : ∀ j, 0 ≤ (x2 j).toInt ∧ (x2 j).toInt < 16) :
    val_main_v15 (F := Ideal) x0 x1 x2 x3 x4 = G x0 x1 x2 x3 x4 := by
  funext i
  obtain ⟨t, n, rfl⟩ : ∃ (t : Fin 32) (n : Fin 11008), i = ix2 t n := ⟨i 0, i 1, eq_ix2 i⟩
  have el : ∀ k : Fin 4096, lidx_main_v12 (ix2 t n) k = ix2 t k := fun k => funext fun a => Fin.ext (by
    match a with
    | ⟨0, _⟩ => rfl
    | ⟨1, _⟩ => rfl)
  have er : ∀ k : Fin 4096, ridx_main_v12 (ix2 t n) k = ix2 k n := fun k => funext fun a => Fin.ext (by
    match a with
    | ⟨0, _⟩ => rfl
    | ⟨1, _⟩ => rfl)
  have eb : idx_main_v13 (idx_main_v14 (ix2 t n)) = ix1 n := funext fun a => Fin.ext (by
    match a with
    | ⟨0, _⟩ => rfl)
  rw [val_main_v15_apply, val_main_v12_apply, val_main_v14_apply, val_main_v13_apply, eb]
  show (∑ k : Fin 4096, x0 (lidx_main_v12 (ix2 t n) k) * val_main_v11 (F := Ideal) x1 x2 x3 (ridx_main_v12 (ix2 t n) k))
      + x4 (ix1 n) = (∑ k : Fin 4096, x0 (ix2 t k) * weight x1 x2 x3 k n) + x4 (ix1 n)
  congr 1
  refine Finset.sum_congr rfl fun k _ => ?_
  rw [el, er, ref_weight x1 x2 x3 hq hz]

end Cert.RefBridge

end
-- ==== Proof.CodeRange.lean ====
/-
  The precondition read back: every quantised code and every zero point is a 4-bit code.

  The precondition is a conjunction, by bitwise `and` of one-bit words, of statements "all elements of an array of
  one-bit words are 1".  Four of them compare the words of the code array and of the zero-point array, read as signed
  integers, with the constants 0 (from below) and 16 (strictly from above).  When the whole conjunction is 1 each
  conjunct is 1, each array of comparison bits is 1 everywhere, and each comparison bit says the inequality.
-/
import proofs.«132616_j39084202394118_2_alg».proof.Pre_finite_inputs
import Idealize.ShloMosaic.Lib.ReduceAll
import Idealize.ShloMosaic.Lib.ValueIdx

namespace Cert.CodeRange

open Idealize.ShloMosaic Cert.Pre_finite_inputs

/-- The scalar shape has one index. -/
instance : Subsingleton S_.Idx := ⟨fun a b => funext fun d => d.elim0⟩

/-- The bitwise `and` of two arrays, at an index. -/
theorem andi_at {s : Shape} {w : Nat} (x y : IVec s w) (i : s.Idx) : andi x y i = IntOp.andi (x i) (y i) := rfl

/-- An integer comparison of two arrays, at an index. -/
theorem cmpi_at {s : Shape} {w : Nat} (p : CmpIPredicate) (x y : IVec s w) (i : s.Idx) :
    cmpi p x y i = IntOp.cmpi p (x i) (y i) := rfl

variable [Cert.Pre_finite_inputs.Facts]

/-- Under the precondition every word of the code array and of the zero-point array, read signed, lies in `[0, 16)`. -/
theorem code_range {F : FTy → Type} [FloatOps F] (a0 : FVec F S32x4096 .f32) (a1 : IVec S4096x11008 32)
    (a2 : IVec S32x11008 32) (a3 : FVec F S32x11008 .f32) (a4 : FVec F S11008 .f32)
    (h : Cert.Pre_finite_inputs.fn (F := F) a0 a1 a2 a3 a4 = fun _ => 1#1) :
    (∀ j, 0 ≤ (a1 j).toInt ∧ (a1 j).toInt < 16) ∧ (∀ j, 0 ≤ (a2 j).toInt ∧ (a2 j).toInt < 16) := by
  have h0 := congrFun h ValueIdx.ix0
  dsimp only [fn, fn_part1] at h0
  rw [andi_at, IntOp.andi_eq_one, andi_at, IntOp.andi_eq_one, andi_at, IntOp.andi_eq_one, andi_at,
    IntOp.andi_eq_one] at h0
  obtain ⟨⟨⟨⟨-, hq0⟩, hq16⟩, hz0⟩, hz16⟩ := h0
  have z0 : (0#32 : BitVec 32).toInt = 0 := by decide
  have z16 : (16#32 : BitVec 32).toInt = 16 := by decide
  refine ⟨fun j => ⟨?_, ?_⟩, fun j => ⟨?_, ?_⟩⟩
  · have e : (0#32 : BitVec 32).toInt ≤ (a1 j).toInt :=
      IntOp.cmpi_sge.1 (Host.reduce_andi_all _ _ _ _ _ hq0 j)
    rw [z0] at e; exact e
  · have e : (a1 j).toInt < (16#32 : BitVec 32).toInt :=
      IntOp.cmpi_slt.1 (Host.reduce_andi_all _ _ _ _ _ hq16 j)
    rw [z16] at e; exact e
  · have e : (0#32 : BitVec 32).toInt ≤ (a2 j).toInt :=
      IntOp.cmpi_sge.1 (Host.reduce_andi_all _ _ _ _ _ hz0 j)
    rw [z0] at e; exact e
  · have e : (a2 j).toInt < (16#32 : BitVec 32).toInt :=
      IntOp.cmpi_slt.1 (Host.reduce_andi_all _ _ _ _ _ hz16 j)
    rw [z16] at e; exact e

end Cert.CodeRange
-- ==== Proof.lean ====
/-
  A 4-bit-quantised matrix product on a 22-point grid against its plain reference, over the extended reals.

  Both programs compute `out[t, n] = (sum over k of x[t, k] * w[k, n]) + b[n]` with the dequantised weight
  `w[k, n] = (q[k, n] - z[k / 128, n]) * s[k / 128, n]` (Proof/DequantGemm.lean).  The kernel subtracts the zero point
  from the code in the 32-bit integers and reads the difference signed; the reference first recentres both by 8 in
  the 32-bit integers, reads each signed, and subtracts as reals.  For codes and zero points in the range of 4-bit
  codes, which the precondition states, no subtraction wraps and the two are the same real (`recentred_sub`).
  Nothing else differs: a change of float format is the identity, and the matrix unit's product onto a zero
  accumulator and the host's product are the same sum, term by term; no law that fails at infinities is used, so the
  finiteness of the float inputs is never opened.

  The kernel works through column blocks of 512, and 11008 = 21 * 512 + 256: the last block hangs over the arrays'
  end.  Its fetches fill only 256 columns of each staging buffer, the step then computes 256 columns from words
  nothing names, and the write-back writes only the 256 columns inside the array.  Because the contraction runs
  over rows, a column of the step's result depends only on the same column of its inputs (Proof/Columns.lean), so the
  columns written back are the specification's at every point, and they tile the array (Proof/Result.lean).

  The three frames: each kernel program runs to the end, faults nowhere and leaves its arguments unchanged
  (Proof/StagedBits.lean, Proof/StagedIdeal.lean — stated without saying anything of the result's buffer, which is
  why they hold at the word level too); the reference's frame is its run with the result dropped.
-/
import proofs.«132616_j39084202394118_2_alg».proof.Defs
import proofs.«132616_j39084202394118_2_alg».proof.Proof.Gen.Kernel
import proofs.«132616_j39084202394118_2_alg».proof.Proof.Gen.KernelIdeal
import proofs.«132616_j39084202394118_2_alg».proof.Proof.Gen.ReferenceIdeal
import proofs.«132616_j39084202394118_2_alg».proof.Proof.Gen.Pre_finite_inputs
import proofs.«132616_j39084202394118_2_alg».proof.Proof.Gen.ReferenceIdeal.Run
import proofs.«132616_j39084202394118_2_alg».proof.Proof.Gen.ReferenceIdeal.Read
import proofs.«132616_j39084202394118_2_alg».proof.Proof.StagedBits
import proofs.«132616_j39084202394118_2_alg».proof.Proof.StagedIdeal
import proofs.«132616_j39084202394118_2_alg».proof.Proof.Result
import proofs.«132616_j39084202394118_2_alg».proof.Proof.ReferenceIsG
import proofs.«132616_j39084202394118_2_alg».proof.Proof.CodeRange
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_kernel : Cert.frame_Kernel := fun m ρ _ =>
  Cert.Kernel.Staged.args_kept (F := Bits) m ρ (fun _ _ _ => FloatOps.ofBits (F := Bits) .f32 0#32)

/-- So does the idealized kernel. -/
theorem frame_kernel_ideal : Cert.frame_KernelIdeal := fun m ρ _ =>
  Cert.KernelIdeal.Staged.args_kept (F := Ideal) m ρ (fun _ _ _ => FloatOps.ofBits (F := Ideal) .f32 0#32)

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the specification of those arguments
    in their result: the kernel by its blocks (Proof/Result.lean), the reference because its term is the
    specification once codes and zero points are 4-bit codes (Proof/ReferenceIsG.lean, Proof/CodeRange.lean). -/
theorem algebraic : Cert.algebraic_KernelIdeal_ReferenceIdeal := by
  intro m ρ m' ρ' hpre hagree
  refine ⟨fun c => Cert.KernelIdeal.Columns.spec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨hq, hz⟩ := Cert.CodeRange.code_range _ _ _ _ _ (hpre c)
  rw [Cert.ReferenceIdeal.Read.val_main_v15_eq, (hagree c).1, (hagree c).2.1, (hagree c).2.2.1, (hagree c).2.2.2.1, (hagree c).2.2.2.2]
  exact Cert.RefBridge.ref_is_G _ _ _ _ _ hq hz

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
